-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S1x1 : Shape := ⟨2, ![1, 1]⟩
abbrev S128x128 : Shape := ⟨2, ![128, 128]⟩
abbrev S128x8192 : Shape := ⟨2, ![128, 8192]⟩
abbrev S1x128x8192 : Shape := ⟨3, ![1, 128, 8192]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S1x1, .f32⟩
  | .hbm, ⟨3, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S8192x128, .f32⟩
  | .local _ .vmem, ⟨3, _⟩ => ⟨S128x8192, .f32⟩
  | .local _ .vmem, ⟨4, _⟩ => ⟨S128x8192, .f32⟩
  | .local _ .vmem, ⟨5, _⟩ => ⟨S1x1, .f32⟩
  | .local _ .vmem, ⟨6, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v35 : BitVec 1 := Scalar.cmpi .eq arg0 c63_i32
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  inb_S128x8192_S128x8192_0_0 : ∀ a, (![0, 0] : Fin 2 → Nat) a + S128x8192.size a ≤ S128x8192.size a
  h_S128x8192 : 0 < S128x8192.numel
  shapeCasts_S128x8192_S1x128x8192 : S128x8192.ShapeCasts S1x128x8192
  reduces_S1x128x8192_S1 : S1x128x8192.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S128x128_S8192x128_S128x8192_1_1_0_0_n_n_wf : DotDims.WF S128x128 S8192x128 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S8192x8192.size a
  hwx0_2 : ∀ i : grid0.Coords, EltTy.bits .f32 = 32 ∨ (Rect.block (s := S8192x8192) S128x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S128x8192 : Shape := ⟨2, ![128, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S_, .f32⟩
  | .hbm, ⟨3, _⟩ => ⟨S8192x8192, .f32⟩
  | .hbm, ⟨4, _⟩ => ⟨S8192x8192, .i1⟩
  | .hbm, ⟨5, _⟩ => ⟨S_, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S128x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S8192x128_S128x8192_1_0 : S8192x128.Transposes [1, 0] S128x8192
  reducesTo_S8192x8192_S_d0_1 : S8192x8192.ReducesTo [0, 1] S_
  h_S_ : 0 < S_.numel
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBase.lean ====
/-
  The loss kernel runs on a grid of 64 points. Point t is handed rows 128·t … 128·t+127 of x (window 0), all of x
  (window 1: the same array as window 0, fetched once), rows 128·t … 128·t+127 of adj (window 2) and the 1×1 result
  (window 3), beside a 1×1 scratch that it keeps from point to point. This module names what the later ones are
  stated over: the two branch conditions of the body in closed form (the first is true at point 0 only, the second
  at point 63 only), where the result window is idle (everywhere but point 63), the staging memrefs the body is called
  with, each window's block read off the array as the region finds it, and the scoped rest as the scratch owned at
  some contents.
-/
import proofs.«178279_j2680059592917_1_alg».proof.Proof.Gen.Kernel.Launch
import proofs.«178279_j2680059592917_1_alg».proof.Proof.Gen.Kernel.Skeleton
import proofs.«178279_j2680059592917_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them: no host operation precedes it -/

/-- Core `c`'s buffer contents when the region is entered: the launch memory. -/
abbrev V0 (c : Dev nD) : Valuation τ sig (Elt F) := fun b => m (c, b)
/-- The same read at a TensorCore reference. -/
abbrev V (c : Dev nD) (b : Ref sig .tc) : Buf (Elt F) ((c : Thread nD τ).loc b) := V0 m c (Proc.devRef .tc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches of the body -/

/-- The body's first branch (zero the scratch) is taken when the grid coordinate is 0. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- Its second branch (divide the scratch by 2^26 into the result) is taken when the grid coordinate is 63. -/
abbrev isLast (i : grid0.Coords) : Prop := k0_cond2 i = 1#1
theorem isLast_iff : ∀ t : Fin cfg0.N, isLast (grid0.coords t) ↔ t.val = 63 :=
  (by decide +kernel : ∀ t : Fin grid0.N, isLast (grid0.coords t) ↔ t.val = 63)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last point the result window is idle and is not written back; at the last point it is live. -/
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The memrefs the body is called with -/

abbrev ms0 (t : Fin cfg0.N) : Memref sig .tc .vmem S128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The scratch: a whole scoped buffer of the kernel's own. -/
abbrev scM : Memref sig .tc .vmem S1x1 .f32 := Memref.whole cc0_scratch0
/-- The views through which the scratch's and the result buffer's contents are stated. -/
abbrev VS : View sig .tc .vmem S1x1 .f32 := scM.view
abbrev VO : View sig .tc .vmem S1x1 .f32 := (Memref.whole cc0_stg3_0 : Memref sig .tc .vmem S1x1 .f32).view

/-- The scoped buffers no window stages are the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## Each input's staging buffer holds its block when the body runs -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.KRunA.lean ====
/-
  The body at the grid's FIRST point (first branch taken, second not): it zeroes the scratch, loads the three input
  blocks, reads the scratch back and stores into it the zero plus the block's sum; it does not touch the result buffer.
  Stated as a triple on any whole memrefs: the inputs and the result buffer come back as they were, the scratch with
  the stores the run made written into it — the list of those stores is what the run finds.
-/
import proofs.«178279_j2680059592917_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runA (c : Dev nD) (i : grid0.Coords) (a1 : Memref sig .tc .vmem S128x128 .f32) (h1 : a1.IsWhole) (a2 : Memref sig .tc .vmem S8192x128 .f32) (h2 : a2.IsWhole) (a3 : Memref sig .tc .vmem S128x8192 .f32) (h3 : a3.IsWhole) (a4 : Memref sig .tc .vmem S1x1 .f32) (h4 : a4.IsWhole) (a5 : Memref sig .tc .vmem S1x1 .f32) (h5 : a5.IsWhole) (hc0 : isFirst i) (hc1 : ¬isLast i)
    (x1 : Vec F S128x128 .f32) (x2 : Vec F S8192x128 .f32) (x3 : Vec F S128x8192 .f32) :
    { LS : List (View.Piece (Elt F) S1x1 .f32) //
      ∀ (xi : Vec F S1x1 .f32) (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare xi ∗ (∃ d, owns (c : Thread nD τ) a5 fullShare d)
            ∗ (iprop(owns (c : Thread nD τ) a1 fullShare x1 ∗ owns (c : Thread nD τ) a2 fullShare x2 ∗ owns (c : Thread nD τ) a3 fullShare x3 ∗ owns (c : Thread nD τ) a4 fullShare xi ∗ (∃ f, a5.view.loc (c : Thread nD τ) ↦[a5.view.set]{fullShare} a5.view.writes (Elt F) f LS)) -∗ K ⟨⟩))
          ⊢ wp frame (wpE (defs₀ (F := F)) Variants.none c none) E (cc0__loss_kernel i a1 h1 a2 h2 a3 h3 a4 h4 a5 h5) K } := by
  refine ⟨?_, fun xi E K => ?run⟩
  case run =>
    simp only [cc0__loss_kernel_eq_skeleton]; unfold cc0__loss_kernel_skel
    simp only [k0_part1_eq_skeleton]
    unfold owns
    iintro ⟨⟨%f1, %hf1, H1⟩, ⟨%f2, %hf2, H2⟩, ⟨%f3, %hf3, H3⟩, ⟨%f4, %hf4, H4⟩, ⟨%d5, %f5, -, H5⟩, Hk⟩
    obtain rfl := h1.eq_unread hf1; obtain rfl := h2.eq_unread hf2; obtain rfl := h3.eq_unread hf3; obtain rfl := h4.eq_unread hf4
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.Kernel.Hand

end
-- ==== Proof.KRunB.lean ====
/-
  The body at a MIDDLE point (neither branch taken): it loads the three input blocks, reads the scratch — which holds
  what the point before left — and stores into it that value plus the block's sum; the result buffer is untouched.
-/
import proofs.«178279_j2680059592917_1_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runB (c : Dev nD) (i : grid0.Coords) (a1 : Memref sig .tc .vmem S128x128 .f32) (h1 : a1.IsWhole) (a2 : Memref sig .tc .vmem S8192x128 .f32) (h2 : a2.IsWhole) (a3 : Memref sig .tc .vmem S128x8192 .f32) (h3 : a3.IsWhole) (a4 : Memref sig .tc .vmem S1x1 .f32) (h4 : a4.IsWhole) (a5 : Memref sig .tc .vmem S1x1 .f32) (h5 : a5.IsWhole) (hc0 : ¬isFirst i) (hc1 : ¬isLast i)
    (x1 : Vec F S128x128 .f32) (x2 : Vec F S8192x128 .f32) (x3 : Vec F S128x8192 .f32) (xs : Vec F S1x1 .f32) :
    { LS : List (View.Piece (Elt F) S1x1 .f32) //
      ∀ (xi : Vec F S1x1 .f32) (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare xi ∗ owns (c : Thread nD τ) a5 fullShare xs
            ∗ (iprop(owns (c : Thread nD τ) a1 fullShare x1 ∗ owns (c : Thread nD τ) a2 fullShare x2 ∗ owns (c : Thread nD τ) a3 fullShare x3 ∗ owns (c : Thread nD τ) a4 fullShare xi ∗ (∃ f, a5.view.loc (c : Thread nD τ) ↦[a5.view.set]{fullShare} a5.view.writes (Elt F) f LS)) -∗ K ⟨⟩))
          ⊢ wp frame (wpE (defs₀ (F := F)) Variants.none c none) E (cc0__loss_kernel i a1 h1 a2 h2 a3 h3 a4 h4 a5 h5) K } := by
  refine ⟨?_, fun xi E K => ?run⟩
  case run =>
    simp only [cc0__loss_kernel_eq_skeleton]; unfold cc0__loss_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := h1.eq_unread hf1; obtain rfl := h2.eq_unread hf2; obtain rfl := h3.eq_unread hf3; obtain rfl := h4.eq_unread hf4; obtain rfl := h5.eq_unread hf5
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.Kernel.Hand

end
-- ==== Proof.KRunC.lean ====
/-
  The body at the grid's LAST point (first branch not taken, second taken): as at a middle point it adds the block's
  sum to the scratch; then it reads the scratch back and stores its quotient by 2^26 into the result buffer.
-/
import proofs.«178279_j2680059592917_1_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runC (c : Dev nD) (i : grid0.Coords) (a1 : Memref sig .tc .vmem S128x128 .f32) (h1 : a1.IsWhole) (a2 : Memref sig .tc .vmem S8192x128 .f32) (h2 : a2.IsWhole) (a3 : Memref sig .tc .vmem S128x8192 .f32) (h3 : a3.IsWhole) (a4 : Memref sig .tc .vmem S1x1 .f32) (h4 : a4.IsWhole) (a5 : Memref sig .tc .vmem S1x1 .f32) (h5 : a5.IsWhole) (hc0 : ¬isFirst i) (hc1 : isLast i)
    (x1 : Vec F S128x128 .f32) (x2 : Vec F S8192x128 .f32) (x3 : Vec F S128x8192 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ (∃ d, owns (c : Thread nD τ) a4 fullShare d) ∗ owns (c : Thread nD τ) a5 fullShare xs
            ∗ (iprop(owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f LO) ∗ (∃ f, a5.view.loc (c : Thread nD τ) ↦[a5.view.set]{fullShare} a5.view.writes (Elt F) f LS)) -∗ K ⟨⟩))
          ⊢ wp frame (wpE (defs₀ (F := F)) Variants.none c none) E (cc0__loss_kernel i a1 h1 a2 h2 a3 h3 a4 h4 a5 h5) K } := by
  refine ⟨?_, ?_, fun E K => ?run⟩
  case run =>
    simp only [cc0__loss_kernel_eq_skeleton]; unfold cc0__loss_kernel_skel
    simp only [k0_part1_eq_skeleton]
    unfold owns
    iintro ⟨⟨%f1, %hf1, H1⟩, ⟨%f2, %hf2, H2⟩, ⟨%f3, %hf3, H3⟩, ⟨%d4, %f4, -, H4⟩, ⟨%f5, %hf5, H5⟩, Hk⟩
    obtain rfl := h1.eq_unread hf1; obtain rfl := h2.eq_unread hf2; obtain rfl := h3.eq_unread hf3; obtain rfl := h5.eq_unread hf5
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    iexists _; iexact H5

end Cert.Kernel.Hand

end
-- ==== Proof.KData.lean ====
/-
  What the scratch and the result buffer hold after each point, and the body obligation.

  The scratch after point 0 is the body's sum payload of the three blocks at point 0 and the zero fill; after a later
  point t it is the same payload of the blocks at t and the scratch after t - 1 (`accAt`). The result buffer, stored
  at point 63 only, is the quotient payload of the scratch after point 63. The three case runs found their stores as
  lists; here each list is read back as the payload it leaves (a store through the whole 1×1 rectangle leaves its
  payload, a load through it reads the contents), and the proof data is stated over the payloads.
-/
import proofs.«178279_j2680059592917_1_alg».proof.Proof.KRunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

/-! ## The case runs' stores, read back -/

section ReadBack

variable (c : Dev nD) (i : grid0.Coords) (a1 : Memref sig .tc .vmem S128x128 .f32) (h1 : a1.IsWhole) (a2 : Memref sig .tc .vmem S8192x128 .f32) (h2 : a2.IsWhole) (a3 : Memref sig .tc .vmem S128x8192 .f32) (h3 : a3.IsWhole) (a4 : Memref sig .tc .vmem S1x1 .f32) (h4 : a4.IsWhole) (a5 : Memref sig .tc .vmem S1x1 .f32) (h5 : a5.IsWhole)
  (x1 : Vec F S128x128 .f32) (x2 : Vec F S8192x128 .f32) (x3 : Vec F S128x8192 .f32)

theorem coverA (hc0 : isFirst i) (hc1 : ¬isLast i) (y : S1x1.Idx) :
    ∃ pc ∈ (runA c i a1 h1 a2 h2 a3 h3 a4 h4 a5 h5 hc0 hc1 x1 x2 x3).1, y ∈ pc.1.set :=
  View.cover_of_tiledL (runA c i a1 h1 a2 h2 a3 h3 a4 h4 a5 h5 hc0 hc1 x1 x2 x3).1 S1x1.size (by sl_kernel_rfl) y

/-- At the first point the scratch is left at the sum payload over the zero fill. -/
theorem readA (hc0 : isFirst i) (hc1 : ¬isLast i) {sig' : RefSig} {κ' : Kind} {sp' : Space} (v : View sig' κ' sp' S1x1 .f32) (f : v.ty.Contents (Elt F)) :
    v.read (Elt F) (v.writes (Elt F) f (runA c i a1 h1 a2 h2 a3 h3 a4 h4 a5 h5 hc0 hc1 x1 x2 x3).1) = k0_pay3 x1 x2 x3 (k0_pay2 (F := F)) := by
  rw [View.read_writes_eq_canon _ _ _ (coverA c i a1 h1 a2 h2 a3 h3 a4 h4 a5 h5 x1 x2 x3 hc0 hc1)]
  unfold runA
  dsimp only
  sl_unfold_words
  rw [View.canon_cons_unit_zero hz2]
  simp only [View.readAt_eq_ld, h1.read_unread, h2.read_unread, h3.read_unread, h5.read_unread, View.ld_unit_zero (S := S128x128) hz2, View.ld_unit_zero (S := S8192x128) hz2, View.ld_unit_zero (S := S128x8192) hz2, View.ld_unit_zero (S := S1x1) hz2]
  exact congrArg (k0_pay3 x1 x2 x3) (View.readCov_unit_zero (S := S1x1) a5.view hz2 inb_S1x1_S1x1_0_0 _)

theorem coverB (hc0 : ¬isFirst i) (hc1 : ¬isLast i) (xs : Vec F S1x1 .f32) (y : S1x1.Idx) :
    ∃ pc ∈ (runB c i a1 h1 a2 h2 a3 h3 a4 h4 a5 h5 hc0 hc1 x1 x2 x3 xs).1, y ∈ pc.1.set :=
  View.cover_of_tiledL (runB c i a1 h1 a2 h2 a3 h3 a4 h4 a5 h5 hc0 hc1 x1 x2 x3 xs).1 S1x1.size (by sl_kernel_rfl) y

/-- At a middle point the scratch is left at the sum payload over what it held. -/
theorem readB (hc0 : ¬isFirst i) (hc1 : ¬isLast i) (xs : Vec F S1x1 .f32) {sig' : RefSig} {κ' : Kind} {sp' : Space} (v : View sig' κ' sp' S1x1 .f32) (f : v.ty.Contents (Elt F)) :
    v.read (Elt F) (v.writes (Elt F) f (runB c i a1 h1 a2 h2 a3 h3 a4 h4 a5 h5 hc0 hc1 x1 x2 x3 xs).1) = k0_pay3 x1 x2 x3 xs := by
  rw [View.read_writes_eq_canon _ _ _ (coverB c i a1 h1 a2 h2 a3 h3 a4 h4 a5 h5 x1 x2 x3 hc0 hc1 xs)]
  unfold runB
  dsimp only
  sl_unfold_words
  rw [View.canon_unit_zero hz2]
  simp only [View.readAt_eq_ld, h1.read_unread, h2.read_unread, h3.read_unread, h5.read_unread, View.ld_unit_zero (S := S128x128) hz2, View.ld_unit_zero (S := S8192x128) hz2, View.ld_unit_zero (S := S128x8192) hz2, View.ld_unit_zero (S := S1x1) hz2]

theorem coverCS (hc0 : ¬isFirst i) (hc1 : isLast i) (xs : Vec F S1x1 .f32) (y : S1x1.Idx) :
    ∃ pc ∈ (runC c i a1 h1 a2 h2 a3 h3 a4 h4 a5 h5 hc0 hc1 x1 x2 x3 xs).2.1, y ∈ pc.1.set :=
  View.cover_of_tiledL (runC c i a1 h1 a2 h2 a3 h3 a4 h4 a5 h5 hc0 hc1 x1 x2 x3 xs).2.1 S1x1.size (by sl_kernel_rfl) y

/-- At the last point the scratch is left at the sum payload over what it held, -/
theorem readCS (hc0 : ¬isFirst i) (hc1 : isLast i) (xs : Vec F S1x1 .f32) {sig' : RefSig} {κ' : Kind} {sp' : Space} (v : View sig' κ' sp' S1x1 .f32) (f : v.ty.Contents (Elt F)) :
    v.read (Elt F) (v.writes (Elt F) f (runC c i a1 h1 a2 h2 a3 h3 a4 h4 a5 h5 hc0 hc1 x1 x2 x3 xs).2.1) = k0_pay3 x1 x2 x3 xs := by
  rw [View.read_writes_eq_canon _ _ _ (coverCS c i a1 h1 a2 h2 a3 h3 a4 h4 a5 h5 x1 x2 x3 hc0 hc1 xs)]
  unfold runC
  dsimp only
  sl_unfold_words
  rw [View.canon_unit_zero hz2]
  simp only [View.readAt_eq_ld, h1.read_unread, h2.read_unread, h3.read_unread, h5.read_unread, View.ld_unit_zero (S := S128x128) hz2, View.ld_unit_zero (S := S8192x128) hz2, View.ld_unit_zero (S := S128x8192) hz2, View.ld_unit_zero (S := S1x1) hz2]

theorem coverCO (hc0 : ¬isFirst i) (hc1 : isLast i) (xs : Vec F S1x1 .f32) (y : S1x1.Idx) :
    ∃ pc ∈ (runC c i a1 h1 a2 h2 a3 h3 a4 h4 a5 h5 hc0 hc1 x1 x2 x3 xs).1, y ∈ pc.1.set :=
  View.cover_of_tiledL (runC c i a1 h1 a2 h2 a3 h3 a4 h4 a5 h5 hc0 hc1 x1 x2 x3 xs).1 S1x1.size (by sl_kernel_rfl) y

/-- and the result buffer at the quotient payload of that. -/
theorem readCO (hc0 : ¬isFirst i) (hc1 : isLast i) (xs : Vec F S1x1 .f32) {sig' : RefSig} {κ' : Kind} {sp' : Space} (v : View sig' κ' sp' S1x1 .f32) (f : v.ty.Contents (Elt F)) :
    v.read (Elt F) (v.writes (Elt F) f (runC c i a1 h1 a2 h2 a3 h3 a4 h4 a5 h5 hc0 hc1 x1 x2 x3 xs).1) = k0_pay1 (k0_pay3 x1 x2 x3 xs) := by
  rw [View.read_writes_eq_canon _ _ _ (coverCO c i a1 h1 a2 h2 a3 h3 a4 h4 a5 h5 x1 x2 x3 hc0 hc1 xs)]
  unfold runC
  dsimp only
  sl_unfold_words
  rw [View.canon_unit_zero hz2]
  simp only [View.readAt_eq_ld, h1.read_unread, h2.read_unread, h3.read_unread, h5.read_unread, View.ld_unit_zero (S := S128x128) hz2, View.ld_unit_zero (S := S8192x128) hz2, View.ld_unit_zero (S := S128x8192) hz2, View.ld_unit_zero (S := S1x1) hz2]
  exact congrArg k0_pay1 (View.readCov_unit_zero (S := S1x1) a5.view hz2 inb_S1x1_S1x1_0_0 _)

end ReadBack

/-! ## The accumulation -/

/-- The scratch after point `n`: the sum payload of the point's blocks over the zero fill at point 0, over the scratch
    after the point before at a later one. -/
def accAt (c : Dev nD) : (n : ℕ) → n < cfg0.N → Vec F S1x1 .f32
  | 0, hn => k0_pay3 (iblk m c 0 ⟨0, hn⟩) (iblk m c 1 ⟨0, hn⟩) (iblk m c 2 ⟨0, hn⟩) (k0_pay2 (F := F))
  | n + 1, hn => k0_pay3 (iblk m c 0 ⟨n + 1, hn⟩) (iblk m c 1 ⟨n + 1, hn⟩) (iblk m c 2 ⟨n + 1, hn⟩) (accAt c n (Nat.lt_of_succ_lt hn))

theorem accAt_first (c : Dev nD) (t : Fin cfg0.N) (h : t.val = 0) :
    accAt m c t.val t.isLt = k0_pay3 (iblk m c 0 t) (iblk m c 1 t) (iblk m c 2 t) (k0_pay2 (F := F)) := by
  obtain ⟨n, hn⟩ := t
  cases n with
  | zero => rfl
  | succ n => exact absurd h (Nat.succ_ne_zero n)

theorem accAt_later (c : Dev nD) (t : Fin cfg0.N) (h : t.val ≠ 0) :
    accAt m c t.val t.isLt = k0_pay3 (iblk m c 0 t) (iblk m c 1 t) (iblk m c 2 t) (accAt m c (t.val - 1) (Nat.lt_of_le_of_lt (Nat.sub_le _ _) t.isLt)) := by
  obtain ⟨n, hn⟩ := t
  cases n with
  | zero => exact absurd rfl h
  | succ n => rfl

/-- The region invariant before position `n`: before the first point the scratch at anything; afterwards the scratch
    at what the point before left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- On core `c`: the arrays as launched; each input's buffer left at its block; the result's buffer at the quotient
    payload of the scratch (read at the last point only: elsewhere the window is idle); the invariant `PhiS`; the two
    windows on x holding the two halves of its share, adj held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (accAt m c t.val t.isLt)
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay1 (accAt m c t.val t.isLt) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]

set_option maxHeartbeats 4800000 in
/-- The body at any point: the inputs' buffers hold their blocks; the closed forms say which of the three cases the
    point is in; that case's run applies, the invariant handing it the scratch (at anything at the first point, at what
    the point before left afterwards) and taking it back at this point's contents; the result buffer is handed back
    as found except at the last point, where it is left at the quotient payload. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 64 := lt_of_lt_of_eq t.isLt (show cfg0.N = 64 from N_0)
  by_cases hl : t.val = 63
  · have hf : ¬ t.val = 0 := by omega
    have hc0 : ¬isFirst (grid0.coords t) := fun h => hf ((isFirst_iff t).mp h)
    have hc1 : isLast (grid0.coords t) := (isLast_iff t).mpr hl
    rw [show (dats m 0 c).leavesExact 3 t = owns (c : Thread nD τ) (ms3 t) fullShare ((dats m 0 c).after 3 t) from by
      unfold Dat.leavesExact; rw [live3 t hc1], after3]
    rw [accAt_later m c t hf]
    rw [Phi_castSucc m c t, PhiS_pos m c _ _ hf]
    iintro ⟨HS, Ho, ⟨%d0, H0⟩, ⟨%d1, H1⟩, ⟨%d2, H2⟩, ⟨%d3, H3⟩⟩
    iapply ((runC c (grid0.coords t) _ _ _ _ _ _ _ _ _ _ hc0 hc1 (iblk m c 0 t) (iblk m c 1 t) (iblk m c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS]
    · unfold owns; iexists _; isplitr
      swap; · iexact HS
      ipureintro; exact readCS c _ _ _ _ _ _ _ _ _ _ _ _ _ _ hc0 hc1 _ _ _
    isplitl [Ho]; · iexact Ho
    isplitl [H0]; · iexact H0
    isplitl [H1]; · iexact H1
    isplitl [H2]; · iexact H2
    unfold owns; iexists _; isplitr
    swap; · iexact H3
    ipureintro; exact readCO c _ _ _ _ _ _ _ _ _ _ _ _ _ _ hc0 hc1 _ _ _
  · have hc1 : ¬isLast (grid0.coords t) := fun h => hl ((isLast_iff t).mp h)
    rw [Dat.leavesExact_idle (dats m 0 c) 3 t (idle3 t hc1) (noFlush3 t hc1)]
    by_cases hf : t.val = 0
    · have hc0 : isFirst (grid0.coords t) := (isFirst_iff t).mpr hf
      rw [accAt_first m c t hf]
      rw [Phi_castSucc m c t, PhiS_zero m c _ _ hf]
      iintro ⟨HS, Ho, ⟨%d0, H0⟩, ⟨%d1, H1⟩, ⟨%d2, H2⟩, ⟨%d3, H3⟩⟩
      iapply ((runA c (grid0.coords t) _ _ _ _ _ _ _ _ _ _ hc0 hc1 (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact readA c _ _ _ _ _ _ _ _ _ _ _ _ _ _ hc0 hc1 _ _
      isplitl [Ho]; · iexact Ho
      isplitl [H0]; · iexact H0
      isplitl [H1]; · iexact H1
      isplitl [H2]; · iexact H2
      iexists _; iexact H3
    · have hc0 : ¬isFirst (grid0.coords t) := fun h => hf ((isFirst_iff t).mp h)
      rw [accAt_later m c t hf]
      rw [Phi_castSucc m c t, PhiS_pos m c _ _ hf]
      iintro ⟨HS, Ho, ⟨%d0, H0⟩, ⟨%d1, H1⟩, ⟨%d2, H2⟩, ⟨%d3, H3⟩⟩
      iapply ((runB c (grid0.coords t) _ _ _ _ _ _ _ _ _ _ hc0 hc1 (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact readB c _ _ _ _ _ _ _ _ _ _ _ _ _ _ hc0 hc1 _ _ _
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
/-
  The launch. @main is the kernel region followed by ONE host operation, the reshape of the region's 1×1 result
  `main_v0` to the scalar `main_v1`. Two of the region's windows read ONE array, x: the region is entered with x's full
  share dealt as its left half to the row-block window and its right half to the whole-array window, and left with
  the two halves — an input array ends as it began — joined again. The region's result array then holds what the
  proof data computes (`arrAt 3 N`), the reshape runs on it, and the final state is read: the scalar at the reshape of
  that array, both argument arrays as launched.
-/
import proofs.«178279_j2680059592917_1_alg».proof.Proof.KData
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's whole user algebra. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides along everywhere: the core's `owes`, at nothing. -/
abbrev R (c : Dev nD) : sProp 𝕄 := iprop(∃ W, owes (c : Thread nD τ) (0 : CellTallies nD τ sig Unit) W)

/-! ## The unscoped buffers and the pipeline's arrays, as chains of points-tos -/

omit [FloatOps F] in
theorem unscopedBufs_chain (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)) := by
  unfold unscopedBufs
  exact bigSep_eq_bigSepL_of_eq [main_arg0, main_arg1, main_v0, main_v1] (by decide) (by decide) _

/-- The pipeline's arrays: x twice, at the two halves of its share; adj and the result whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)) := by
  unfold Dat.arrays
  rw [bigSep_W0]
  rw [(arr_whole0 0).set_eq_univ, (arr_whole0 2).set_eq_univ, (arr_whole0 3).set_eq_univ]
  rfl

/-! ## After the region: the result array at its final contents -/

/-- The valuation the host operation after the region runs from: the launch contents, the region's result array at
    what the proof data computes. -/
def Wv (c : Dev nD) : Valuation τ sig (Elt F) :=
  Function.update (V0 m c) (Proc.devRef .tc main_v0) ((dats m 0 c).arrAt 3 cfg0.N)

/-- The buffers the reshape touches. -/
abbrev S01 : Finset (DevRef τ sig) := {Proc.devRef .tc main_v0, Proc.devRef .tc main_v1}

/-- Both argument arrays whole at their launch contents, and the `owes`. -/
abbrev Keep (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)) ∗ R c)

omit [FloatOps F] in
theorem held_S01 (c : Dev nD) (W : Valuation τ sig (Elt F)) :
    (StableHlo.held (c : Thread nD τ) S01 W : sProp 𝕄)
      = iprop((((c : Thread nD τ).loc main_v0) ↦{fullShare} W (Proc.devRef .tc main_v0)) ∗ (((c : Thread nD τ).loc main_v1) ↦{fullShare} W (Proc.devRef .tc main_v1))) := by
  unfold StableHlo.held
  rw [BI.bigSep_insert (by decide), BI.bigSep_singleton]
  rfl

/-- THE HOST SEGMENT: the reshape over the two buffers it touches. -/
def seg1 : Pipeline.HostSeg (Name := ℕ) (U := UR sig nD τ) (pcfgs (F := F)) defs₀ 𝒱₀ L lv :=
  Pipeline.HostSeg.ofOps _ _ _ _ _ S01 hostOps1
    (by intro op h; simp only [hostOps1, List.mem_singleton] at h; subst h; exact Finset.Subset.refl _)
    (by intro _ h; (repeat (cases h with | head => rfl | tail _ h => ?_)); exact nomatch h) (Wv m) (Keep m)

/-- The thread state at the end. -/
abbrev Tₙ (c : Dev nD) : sProp 𝕄 :=
  iprop(StableHlo.held (c : Thread nD τ) S01 (StableHlo.after hostOps1 (Wv m c))
    ∗ (((c : Thread nD τ).loc main_arg0) ↦{fullShare} m ((c : Thread nD τ).loc main_arg0)) ∗ (((c : Thread nD τ).loc main_arg1) ↦{fullShare} m ((c : Thread nD τ).loc main_arg1)))

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(unscopedBufs c (V m c) ∗ R c)
  post c := iprop(StableHlo.held (c : Thread nD τ) S01 (Wv m c) ∗ Keep m c)
  X c := iprop(emp)
  Y c := iprop(emp)
  Z c := ((c : Thread nD τ).loc main_v1) ↦{fullShare} V m c main_v1
  hentry c := by
    rw [unscopedBufs_chain, arrays_chain]
    iintro ⟨⟨⟨H0, H1, Hv0, Hv1⟩, HO⟩, -, -⟩
    ihave H0s := (pointsTo_share (PosShare.mem_left_op_right fullShare)).1 $$ H0
    icases H0s with ⟨H0l, H0r⟩
    imodintro
    isplitl [H0l H0r H1 Hv0]
    · isplitl [H0l]; · iexact H0l
      isplitl [H0r]; · iexact H0r
      isplitl [H1]; · iexact H1
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hv1
  hin c := by
    rw [show (dats m 0 c).Φ 0 = PhiS m c 0 (Nat.zero_le _) from rfl, PhiS_zero m c 0 _ rfl, scopedRest_scratch]
    iintro ⟨-, -, Hr⟩
    iexact Hr
  hout c := by
    rw [Pipeline.ownSems0_none, scopedRest_scratch, show (dats m 0 c).Φ (Fin.last cfg0.N) = PhiS m c (Fin.last cfg0.N).val (Nat.le_of_lt_succ (Fin.last cfg0.N).isLt) from rfl,
      PhiS_pos m c _ _ (by rw [Fin.val_last]; have : cfg0.N = 64 := N_0; omega)]
    iintro HS
    isplitr; · iempintro
    isplitr; · iempintro
    iexists _; iexact HS
  hexit c := by
    rw [arrays_chain, held_S01]
    rw [(dats m 0 c).arrAt_in 0 rfl, (dats m 0 c).arrAt_in 1 rfl, (dats m 0 c).arrAt_in 2 rfl]
    iintro ⟨⟨H0l, H0r, H1, Hv0⟩, HO, -, Hv1⟩
    ihave H0 := (pointsTo_share (PosShare.mem_left_op_right fullShare)).2 $$ [H0l H0r]
    · isplitl [H0l]; · iexact H0l
      iexact H0r
    imodintro
    isplitl [Hv0 Hv1]
    · isplitl [Hv0]
      · rw [show Wv m c (Proc.devRef .tc main_v0) = (dats m 0 c).arrAt 3 cfg0.N from Function.update_self _ _ _]
        iexact Hv0
      · rw [show Wv m c (Proc.devRef .tc main_v1) = V0 m c (Proc.devRef .tc main_v1) from Function.update_of_ne (by decide) _ _]
        iexact Hv1
    isplitl [H0]; · iexact H0
    isplitl [H1]; · iexact H1
    unfold Pipeline.Dat.owesAt Pipeline.owesWithin
    icases HO with ⟨%W, -, HO⟩; iexists W; iexact HO

/-- @main as the list of the two. -/
abbrev segs : List (Pipeline.Seg (pcfgs (F := F)) adm (dats m) () defs₀ 𝒱₀ L lv) := [.region (reg0 m), .host (seg1 m)]

/-- What the final state is read as. -/
def QY (c : Dev nD) (s : MemSt nD τ sig (Elt F)) : Prop :=
  s.mem ((c : Thread nD τ).loc main_v1) = StableHlo.after hostOps1 (Wv m c) (Proc.devRef .tc main_v1)
    ∧ s.mem ((c : Thread nD τ).loc main_arg0) = m ((c : Thread nD τ).loc main_arg0)
    ∧ s.mem ((c : Thread nD τ).loc main_arg1) = m ((c : Thread nD τ).loc main_arg1)

set_option backward.isDefEq.respectTransparency.types false in
/-- At the compiled mesh, for any float values, from any memory with zero counters: every weakly fair execution of
    @main on the TensorCores terminates, and every final state has the scalar result at the reshape of the region's
    result array and both argument arrays unchanged. -/
theorem run_main : θ_run defs (onTc (τ := τ) (main (F := F))) ⟨m, fun _ => 0, ρ⟩ (fun r => ∀ c : Dev nD, QY m c r.2) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c)) (Tₙ := Tₙ m)
    (hch := ⟨fun _ => .rfl, fun _ => .rfl, fun c => (show iprop(StableHlo.held (c : Thread nD τ) S01 (StableHlo.after hostOps1 (Wv m c)) ∗ Keep m c)
        ⊢ iprop(Tₙ m c ∗ ∃ W, owes (c : Thread nD τ) (0 : CellTallies nD τ sig Unit) W) from by
      iintro ⟨Hh, H0, H1, HR⟩
      isplitr [HR]
      · isplitl [Hh]; · iexact Hh
        isplitl [H0]; · iexact H0
        iexact H1
      iexact HR)⟩)
    (hinit := by
      refine Pipeline.initEach L lv fun c => ?_
      iintro ⟨⟨Hh, -, HO, -, -, -⟩, -⟩
      imodintro
      isplitl [Hh]; · iexact Hh
      iexists ∅; iexact HO)
    (QY := QY m)
    (hfin := fun c s' => by
      dsimp only [Tₙ]; rw [held_S01]
      iintro ⟨⟨⟨Hv0, Hv1⟩, H0, H1⟩, HSI⟩
      icombine HSI Hv1 gives %hv
      icombine HSI H0 gives %h0
      icombine HSI H1 gives %h1
      imodintro
      isplitr; · ipureintro; exact ⟨Buf.eq_of_forall_mem_univ hv, Buf.eq_of_forall_mem_univ h0, Buf.eq_of_forall_mem_univ h1⟩
      iexact HSI)
    (hQ := fun _ h => h)

end Cert.Kernel.Hand

end
-- ==== Proof.KIBase.lean ====
/-
  The loss kernel runs on a grid of 64 points. Point t is handed rows 128·t … 128·t+127 of x (window 0), all of x
  (window 1: the same array as window 0, fetched once), rows 128·t … 128·t+127 of adj (window 2) and the 1×1 result
  (window 3), beside a 1×1 scratch that it keeps from point to point. This module names what the later ones are
  stated over: the two branch conditions of the body in closed form (the first is true at point 0 only, the second
  at point 63 only), where the result window is idle (everywhere but point 63), the staging memrefs the body is called
  with, each window's block read off the array as the region finds it, and the scoped rest as the scratch owned at
  some contents.
-/
import proofs.«178279_j2680059592917_1_alg».proof.Proof.Gen.KernelIdeal.Launch
import proofs.«178279_j2680059592917_1_alg».proof.Proof.Gen.KernelIdeal.Skeleton
import proofs.«178279_j2680059592917_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them: no host operation precedes it -/

/-- Core `c`'s buffer contents when the region is entered: the launch memory. -/
abbrev V0 (c : Dev nD) : Valuation τ sig (Elt F) := fun b => m (c, b)
/-- The same read at a TensorCore reference. -/
abbrev V (c : Dev nD) (b : Ref sig .tc) : Buf (Elt F) ((c : Thread nD τ).loc b) := V0 m c (Proc.devRef .tc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches of the body -/

/-- The body's first branch (zero the scratch) is taken when the grid coordinate is 0. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- Its second branch (divide the scratch by 2^26 into the result) is taken when the grid coordinate is 63. -/
abbrev isLast (i : grid0.Coords) : Prop := k0_cond2 i = 1#1
theorem isLast_iff : ∀ t : Fin cfg0.N, isLast (grid0.coords t) ↔ t.val = 63 :=
  (by decide +kernel : ∀ t : Fin grid0.N, isLast (grid0.coords t) ↔ t.val = 63)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last point the result window is idle and is not written back; at the last point it is live. -/
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The memrefs the body is called with -/

abbrev ms0 (t : Fin cfg0.N) : Memref sig .tc .vmem S128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The scratch: a whole scoped buffer of the kernel's own. -/
abbrev scM : Memref sig .tc .vmem S1x1 .f32 := Memref.whole cc0_scratch0
/-- The views through which the scratch's and the result buffer's contents are stated. -/
abbrev VS : View sig .tc .vmem S1x1 .f32 := scM.view
abbrev VO : View sig .tc .vmem S1x1 .f32 := (Memref.whole cc0_stg3_0 : Memref sig .tc .vmem S1x1 .f32).view

/-- The scoped buffers no window stages are the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## Each input's staging buffer holds its block when the body runs -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KIRunA.lean ====
/-
  The body at the grid's FIRST point (first branch taken, second not): it zeroes the scratch, loads the three input
  blocks, reads the scratch back and stores into it the zero plus the block's sum; it does not touch the result buffer.
  Stated as a triple on any whole memrefs: the inputs and the result buffer come back as they were, the scratch with
  the stores the run made written into it — the list of those stores is what the run finds.
-/
import proofs.«178279_j2680059592917_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runA (c : Dev nD) (i : grid0.Coords) (a1 : Memref sig .tc .vmem S128x128 .f32) (h1 : a1.IsWhole) (a2 : Memref sig .tc .vmem S8192x128 .f32) (h2 : a2.IsWhole) (a3 : Memref sig .tc .vmem S128x8192 .f32) (h3 : a3.IsWhole) (a4 : Memref sig .tc .vmem S1x1 .f32) (h4 : a4.IsWhole) (a5 : Memref sig .tc .vmem S1x1 .f32) (h5 : a5.IsWhole) (hc0 : isFirst i) (hc1 : ¬isLast i)
    (x1 : Vec F S128x128 .f32) (x2 : Vec F S8192x128 .f32) (x3 : Vec F S128x8192 .f32) :
    { LS : List (View.Piece (Elt F) S1x1 .f32) //
      ∀ (xi : Vec F S1x1 .f32) (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare xi ∗ (∃ d, owns (c : Thread nD τ) a5 fullShare d)
            ∗ (iprop(owns (c : Thread nD τ) a1 fullShare x1 ∗ owns (c : Thread nD τ) a2 fullShare x2 ∗ owns (c : Thread nD τ) a3 fullShare x3 ∗ owns (c : Thread nD τ) a4 fullShare xi ∗ (∃ f, a5.view.loc (c : Thread nD τ) ↦[a5.view.set]{fullShare} a5.view.writes (Elt F) f LS)) -∗ K ⟨⟩))
          ⊢ wp frame (wpE (defs₀ (F := F)) Variants.none c none) E (cc0__loss_kernel i a1 h1 a2 h2 a3 h3 a4 h4 a5 h5) K } := by
  refine ⟨?_, fun xi E K => ?run⟩
  case run =>
    simp only [cc0__loss_kernel_eq_skeleton]; unfold cc0__loss_kernel_skel
    simp only [k0_part1_eq_skeleton]
    unfold owns
    iintro ⟨⟨%f1, %hf1, H1⟩, ⟨%f2, %hf2, H2⟩, ⟨%f3, %hf3, H3⟩, ⟨%f4, %hf4, H4⟩, ⟨%d5, %f5, -, H5⟩, Hk⟩
    obtain rfl := h1.eq_unread hf1; obtain rfl := h2.eq_unread hf2; obtain rfl := h3.eq_unread hf3; obtain rfl := h4.eq_unread hf4
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.KernelIdeal.Hand

end
-- ==== Proof.KIRunB.lean ====
/-
  The body at a MIDDLE point (neither branch taken): it loads the three input blocks, reads the scratch — which holds
  what the point before left — and stores into it that value plus the block's sum; the result buffer is untouched.
-/
import proofs.«178279_j2680059592917_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runB (c : Dev nD) (i : grid0.Coords) (a1 : Memref sig .tc .vmem S128x128 .f32) (h1 : a1.IsWhole) (a2 : Memref sig .tc .vmem S8192x128 .f32) (h2 : a2.IsWhole) (a3 : Memref sig .tc .vmem S128x8192 .f32) (h3 : a3.IsWhole) (a4 : Memref sig .tc .vmem S1x1 .f32) (h4 : a4.IsWhole) (a5 : Memref sig .tc .vmem S1x1 .f32) (h5 : a5.IsWhole) (hc0 : ¬isFirst i) (hc1 : ¬isLast i)
    (x1 : Vec F S128x128 .f32) (x2 : Vec F S8192x128 .f32) (x3 : Vec F S128x8192 .f32) (xs : Vec F S1x1 .f32) :
    { LS : List (View.Piece (Elt F) S1x1 .f32) //
      ∀ (xi : Vec F S1x1 .f32) (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare xi ∗ owns (c : Thread nD τ) a5 fullShare xs
            ∗ (iprop(owns (c : Thread nD τ) a1 fullShare x1 ∗ owns (c : Thread nD τ) a2 fullShare x2 ∗ owns (c : Thread nD τ) a3 fullShare x3 ∗ owns (c : Thread nD τ) a4 fullShare xi ∗ (∃ f, a5.view.loc (c : Thread nD τ) ↦[a5.view.set]{fullShare} a5.view.writes (Elt F) f LS)) -∗ K ⟨⟩))
          ⊢ wp frame (wpE (defs₀ (F := F)) Variants.none c none) E (cc0__loss_kernel i a1 h1 a2 h2 a3 h3 a4 h4 a5 h5) K } := by
  refine ⟨?_, fun xi E K => ?run⟩
  case run =>
    simp only [cc0__loss_kernel_eq_skeleton]; unfold cc0__loss_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := h1.eq_unread hf1; obtain rfl := h2.eq_unread hf2; obtain rfl := h3.eq_unread hf3; obtain rfl := h4.eq_unread hf4; obtain rfl := h5.eq_unread hf5
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.KernelIdeal.Hand

end
-- ==== Proof.KIRunC.lean ====
/-
  The body at the grid's LAST point (first branch not taken, second taken): as at a middle point it adds the block's
  sum to the scratch; then it reads the scratch back and stores its quotient by 2^26 into the result buffer.
-/
import proofs.«178279_j2680059592917_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runC (c : Dev nD) (i : grid0.Coords) (a1 : Memref sig .tc .vmem S128x128 .f32) (h1 : a1.IsWhole) (a2 : Memref sig .tc .vmem S8192x128 .f32) (h2 : a2.IsWhole) (a3 : Memref sig .tc .vmem S128x8192 .f32) (h3 : a3.IsWhole) (a4 : Memref sig .tc .vmem S1x1 .f32) (h4 : a4.IsWhole) (a5 : Memref sig .tc .vmem S1x1 .f32) (h5 : a5.IsWhole) (hc0 : ¬isFirst i) (hc1 : isLast i)
    (x1 : Vec F S128x128 .f32) (x2 : Vec F S8192x128 .f32) (x3 : Vec F S128x8192 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ (∃ d, owns (c : Thread nD τ) a4 fullShare d) ∗ owns (c : Thread nD τ) a5 fullShare xs
            ∗ (iprop(owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f LO) ∗ (∃ f, a5.view.loc (c : Thread nD τ) ↦[a5.view.set]{fullShare} a5.view.writes (Elt F) f LS)) -∗ K ⟨⟩))
          ⊢ wp frame (wpE (defs₀ (F := F)) Variants.none c none) E (cc0__loss_kernel i a1 h1 a2 h2 a3 h3 a4 h4 a5 h5) K } := by
  refine ⟨?_, ?_, fun E K => ?run⟩
  case run =>
    simp only [cc0__loss_kernel_eq_skeleton]; unfold cc0__loss_kernel_skel
    simp only [k0_part1_eq_skeleton]
    unfold owns
    iintro ⟨⟨%f1, %hf1, H1⟩, ⟨%f2, %hf2, H2⟩, ⟨%f3, %hf3, H3⟩, ⟨%d4, %f4, -, H4⟩, ⟨%f5, %hf5, H5⟩, Hk⟩
    obtain rfl := h1.eq_unread hf1; obtain rfl := h2.eq_unread hf2; obtain rfl := h3.eq_unread hf3; obtain rfl := h5.eq_unread hf5
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    iexists _; iexact H5

end Cert.KernelIdeal.Hand

end
-- ==== Proof.KIData.lean ====
/-
  What the scratch and the result buffer hold after each point, and the body obligation.

  The scratch after point 0 is the body's sum payload of the three blocks at point 0 and the zero fill; after a later
  point t it is the same payload of the blocks at t and the scratch after t - 1 (`accAt`). The result buffer, stored
  at point 63 only, is the quotient payload of the scratch after point 63. The three case runs found their stores as
  lists; here each list is read back as the payload it leaves (a store through the whole 1×1 rectangle leaves its
  payload, a load through it reads the contents), and the proof data is stated over the payloads.
-/
import proofs.«178279_j2680059592917_1_alg».proof.Proof.KIRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

/-! ## The case runs' stores, read back -/

section ReadBack

variable (c : Dev nD) (i : grid0.Coords) (a1 : Memref sig .tc .vmem S128x128 .f32) (h1 : a1.IsWhole) (a2 : Memref sig .tc .vmem S8192x128 .f32) (h2 : a2.IsWhole) (a3 : Memref sig .tc .vmem S128x8192 .f32) (h3 : a3.IsWhole) (a4 : Memref sig .tc .vmem S1x1 .f32) (h4 : a4.IsWhole) (a5 : Memref sig .tc .vmem S1x1 .f32) (h5 : a5.IsWhole)
  (x1 : Vec F S128x128 .f32) (x2 : Vec F S8192x128 .f32) (x3 : Vec F S128x8192 .f32)

theorem coverA (hc0 : isFirst i) (hc1 : ¬isLast i) (y : S1x1.Idx) :
    ∃ pc ∈ (runA c i a1 h1 a2 h2 a3 h3 a4 h4 a5 h5 hc0 hc1 x1 x2 x3).1, y ∈ pc.1.set :=
  View.cover_of_tiledL (runA c i a1 h1 a2 h2 a3 h3 a4 h4 a5 h5 hc0 hc1 x1 x2 x3).1 S1x1.size (by sl_kernel_rfl) y

/-- At the first point the scratch is left at the sum payload over the zero fill. -/
theorem readA (hc0 : isFirst i) (hc1 : ¬isLast i) {sig' : RefSig} {κ' : Kind} {sp' : Space} (v : View sig' κ' sp' S1x1 .f32) (f : v.ty.Contents (Elt F)) :
    v.read (Elt F) (v.writes (Elt F) f (runA c i a1 h1 a2 h2 a3 h3 a4 h4 a5 h5 hc0 hc1 x1 x2 x3).1) = k0_pay3 x1 x2 x3 (k0_pay2 (F := F)) := by
  rw [View.read_writes_eq_canon _ _ _ (coverA c i a1 h1 a2 h2 a3 h3 a4 h4 a5 h5 x1 x2 x3 hc0 hc1)]
  unfold runA
  dsimp only
  sl_unfold_words
  rw [View.canon_cons_unit_zero hz2]
  simp only [View.readAt_eq_ld, h1.read_unread, h2.read_unread, h3.read_unread, h5.read_unread, View.ld_unit_zero (S := S128x128) hz2, View.ld_unit_zero (S := S8192x128) hz2, View.ld_unit_zero (S := S128x8192) hz2, View.ld_unit_zero (S := S1x1) hz2]
  exact congrArg (k0_pay3 x1 x2 x3) (View.readCov_unit_zero (S := S1x1) a5.view hz2 inb_S1x1_S1x1_0_0 _)

theorem coverB (hc0 : ¬isFirst i) (hc1 : ¬isLast i) (xs : Vec F S1x1 .f32) (y : S1x1.Idx) :
    ∃ pc ∈ (runB c i a1 h1 a2 h2 a3 h3 a4 h4 a5 h5 hc0 hc1 x1 x2 x3 xs).1, y ∈ pc.1.set :=
  View.cover_of_tiledL (runB c i a1 h1 a2 h2 a3 h3 a4 h4 a5 h5 hc0 hc1 x1 x2 x3 xs).1 S1x1.size (by sl_kernel_rfl) y

/-- At a middle point the scratch is left at the sum payload over what it held. -/
theorem readB (hc0 : ¬isFirst i) (hc1 : ¬isLast i) (xs : Vec F S1x1 .f32) {sig' : RefSig} {κ' : Kind} {sp' : Space} (v : View sig' κ' sp' S1x1 .f32) (f : v.ty.Contents (Elt F)) :
    v.read (Elt F) (v.writes (Elt F) f (runB c i a1 h1 a2 h2 a3 h3 a4 h4 a5 h5 hc0 hc1 x1 x2 x3 xs).1) = k0_pay3 x1 x2 x3 xs := by
  rw [View.read_writes_eq_canon _ _ _ (coverB c i a1 h1 a2 h2 a3 h3 a4 h4 a5 h5 x1 x2 x3 hc0 hc1 xs)]
  unfold runB
  dsimp only
  sl_unfold_words
  rw [View.canon_unit_zero hz2]
  simp only [View.readAt_eq_ld, h1.read_unread, h2.read_unread, h3.read_unread, h5.read_unread, View.ld_unit_zero (S := S128x128) hz2, View.ld_unit_zero (S := S8192x128) hz2, View.ld_unit_zero (S := S128x8192) hz2, View.ld_unit_zero (S := S1x1) hz2]

theorem coverCS (hc0 : ¬isFirst i) (hc1 : isLast i) (xs : Vec F S1x1 .f32) (y : S1x1.Idx) :
    ∃ pc ∈ (runC c i a1 h1 a2 h2 a3 h3 a4 h4 a5 h5 hc0 hc1 x1 x2 x3 xs).2.1, y ∈ pc.1.set :=
  View.cover_of_tiledL (runC c i a1 h1 a2 h2 a3 h3 a4 h4 a5 h5 hc0 hc1 x1 x2 x3 xs).2.1 S1x1.size (by sl_kernel_rfl) y

/-- At the last point the scratch is left at the sum payload over what it held, -/
theorem readCS (hc0 : ¬isFirst i) (hc1 : isLast i) (xs : Vec F S1x1 .f32) {sig' : RefSig} {κ' : Kind} {sp' : Space} (v : View sig' κ' sp' S1x1 .f32) (f : v.ty.Contents (Elt F)) :
    v.read (Elt F) (v.writes (Elt F) f (runC c i a1 h1 a2 h2 a3 h3 a4 h4 a5 h5 hc0 hc1 x1 x2 x3 xs).2.1) = k0_pay3 x1 x2 x3 xs := by
  rw [View.read_writes_eq_canon _ _ _ (coverCS c i a1 h1 a2 h2 a3 h3 a4 h4 a5 h5 x1 x2 x3 hc0 hc1 xs)]
  unfold runC
  dsimp only
  sl_unfold_words
  rw [View.canon_unit_zero hz2]
  simp only [View.readAt_eq_ld, h1.read_unread, h2.read_unread, h3.read_unread, h5.read_unread, View.ld_unit_zero (S := S128x128) hz2, View.ld_unit_zero (S := S8192x128) hz2, View.ld_unit_zero (S := S128x8192) hz2, View.ld_unit_zero (S := S1x1) hz2]

theorem coverCO (hc0 : ¬isFirst i) (hc1 : isLast i) (xs : Vec F S1x1 .f32) (y : S1x1.Idx) :
    ∃ pc ∈ (runC c i a1 h1 a2 h2 a3 h3 a4 h4 a5 h5 hc0 hc1 x1 x2 x3 xs).1, y ∈ pc.1.set :=
  View.cover_of_tiledL (runC c i a1 h1 a2 h2 a3 h3 a4 h4 a5 h5 hc0 hc1 x1 x2 x3 xs).1 S1x1.size (by sl_kernel_rfl) y

/-- and the result buffer at the quotient payload of that. -/
theorem readCO (hc0 : ¬isFirst i) (hc1 : isLast i) (xs : Vec F S1x1 .f32) {sig' : RefSig} {κ' : Kind} {sp' : Space} (v : View sig' κ' sp' S1x1 .f32) (f : v.ty.Contents (Elt F)) :
    v.read (Elt F) (v.writes (Elt F) f (runC c i a1 h1 a2 h2 a3 h3 a4 h4 a5 h5 hc0 hc1 x1 x2 x3 xs).1) = k0_pay1 (k0_pay3 x1 x2 x3 xs) := by
  rw [View.read_writes_eq_canon _ _ _ (coverCO c i a1 h1 a2 h2 a3 h3 a4 h4 a5 h5 x1 x2 x3 hc0 hc1 xs)]
  unfold runC
  dsimp only
  sl_unfold_words
  rw [View.canon_unit_zero hz2]
  simp only [View.readAt_eq_ld, h1.read_unread, h2.read_unread, h3.read_unread, h5.read_unread, View.ld_unit_zero (S := S128x128) hz2, View.ld_unit_zero (S := S8192x128) hz2, View.ld_unit_zero (S := S128x8192) hz2, View.ld_unit_zero (S := S1x1) hz2]
  exact congrArg k0_pay1 (View.readCov_unit_zero (S := S1x1) a5.view hz2 inb_S1x1_S1x1_0_0 _)

end ReadBack

/-! ## The accumulation -/

/-- The scratch after point `n`: the sum payload of the point's blocks over the zero fill at point 0, over the scratch
    after the point before at a later one. -/
def accAt (c : Dev nD) : (n : ℕ) → n < cfg0.N → Vec F S1x1 .f32
  | 0, hn => k0_pay3 (iblk m c 0 ⟨0, hn⟩) (iblk m c 1 ⟨0, hn⟩) (iblk m c 2 ⟨0, hn⟩) (k0_pay2 (F := F))
  | n + 1, hn => k0_pay3 (iblk m c 0 ⟨n + 1, hn⟩) (iblk m c 1 ⟨n + 1, hn⟩) (iblk m c 2 ⟨n + 1, hn⟩) (accAt c n (Nat.lt_of_succ_lt hn))

theorem accAt_first (c : Dev nD) (t : Fin cfg0.N) (h : t.val = 0) :
    accAt m c t.val t.isLt = k0_pay3 (iblk m c 0 t) (iblk m c 1 t) (iblk m c 2 t) (k0_pay2 (F := F)) := by
  obtain ⟨n, hn⟩ := t
  cases n with
  | zero => rfl
  | succ n => exact absurd h (Nat.succ_ne_zero n)

theorem accAt_later (c : Dev nD) (t : Fin cfg0.N) (h : t.val ≠ 0) :
    accAt m c t.val t.isLt = k0_pay3 (iblk m c 0 t) (iblk m c 1 t) (iblk m c 2 t) (accAt m c (t.val - 1) (Nat.lt_of_le_of_lt (Nat.sub_le _ _) t.isLt)) := by
  obtain ⟨n, hn⟩ := t
  cases n with
  | zero => exact absurd rfl h
  | succ n => rfl

/-- The region invariant before position `n`: before the first point the scratch at anything; afterwards the scratch
    at what the point before left. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- On core `c`: the arrays as launched; each input's buffer left at its block; the result's buffer at the quotient
    payload of the scratch (read at the last point only: elsewhere the window is idle); the invariant `PhiS`; the two
    windows on x holding the two halves of its share, adj held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (accAt m c t.val t.isLt)
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay1 (accAt m c t.val t.isLt) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]

set_option maxHeartbeats 4800000 in
/-- The body at any point: the inputs' buffers hold their blocks; the closed forms say which of the three cases the
    point is in; that case's run applies, the invariant handing it the scratch (at anything at the first point, at what
    the point before left afterwards) and taking it back at this point's contents; the result buffer is handed back
    as found except at the last point, where it is left at the quotient payload. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 64 := lt_of_lt_of_eq t.isLt (show cfg0.N = 64 from N_0)
  by_cases hl : t.val = 63
  · have hf : ¬ t.val = 0 := by omega
    have hc0 : ¬isFirst (grid0.coords t) := fun h => hf ((isFirst_iff t).mp h)
    have hc1 : isLast (grid0.coords t) := (isLast_iff t).mpr hl
    rw [show (dats m 0 c).leavesExact 3 t = owns (c : Thread nD τ) (ms3 t) fullShare ((dats m 0 c).after 3 t) from by
      unfold Dat.leavesExact; rw [live3 t hc1], after3]
    rw [accAt_later m c t hf]
    rw [Phi_castSucc m c t, PhiS_pos m c _ _ hf]
    iintro ⟨HS, Ho, ⟨%d0, H0⟩, ⟨%d1, H1⟩, ⟨%d2, H2⟩, ⟨%d3, H3⟩⟩
    iapply ((runC c (grid0.coords t) _ _ _ _ _ _ _ _ _ _ hc0 hc1 (iblk m c 0 t) (iblk m c 1 t) (iblk m c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS]
    · unfold owns; iexists _; isplitr
      swap; · iexact HS
      ipureintro; exact readCS c _ _ _ _ _ _ _ _ _ _ _ _ _ _ hc0 hc1 _ _ _
    isplitl [Ho]; · iexact Ho
    isplitl [H0]; · iexact H0
    isplitl [H1]; · iexact H1
    isplitl [H2]; · iexact H2
    unfold owns; iexists _; isplitr
    swap; · iexact H3
    ipureintro; exact readCO c _ _ _ _ _ _ _ _ _ _ _ _ _ _ hc0 hc1 _ _ _
  · have hc1 : ¬isLast (grid0.coords t) := fun h => hl ((isLast_iff t).mp h)
    rw [Dat.leavesExact_idle (dats m 0 c) 3 t (idle3 t hc1) (noFlush3 t hc1)]
    by_cases hf : t.val = 0
    · have hc0 : isFirst (grid0.coords t) := (isFirst_iff t).mpr hf
      rw [accAt_first m c t hf]
      rw [Phi_castSucc m c t, PhiS_zero m c _ _ hf]
      iintro ⟨HS, Ho, ⟨%d0, H0⟩, ⟨%d1, H1⟩, ⟨%d2, H2⟩, ⟨%d3, H3⟩⟩
      iapply ((runA c (grid0.coords t) _ _ _ _ _ _ _ _ _ _ hc0 hc1 (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact readA c _ _ _ _ _ _ _ _ _ _ _ _ _ _ hc0 hc1 _ _
      isplitl [Ho]; · iexact Ho
      isplitl [H0]; · iexact H0
      isplitl [H1]; · iexact H1
      isplitl [H2]; · iexact H2
      iexists _; iexact H3
    · have hc0 : ¬isFirst (grid0.coords t) := fun h => hf ((isFirst_iff t).mp h)
      rw [accAt_later m c t hf]
      rw [Phi_castSucc m c t, PhiS_pos m c _ _ hf]
      iintro ⟨HS, Ho, ⟨%d0, H0⟩, ⟨%d1, H1⟩, ⟨%d2, H2⟩, ⟨%d3, H3⟩⟩
      iapply ((runB c (grid0.coords t) _ _ _ _ _ _ _ _ _ _ hc0 hc1 (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact readB c _ _ _ _ _ _ _ _ _ _ _ _ _ _ hc0 hc1 _ _ _
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The launch. @main is the kernel region followed by ONE host operation, the reshape of the region's 1×1 result
  `main_v0` to the scalar `main_v1`. Two of the region's windows read ONE array, x: the region is entered with x's full
  share dealt as its left half to the row-block window and its right half to the whole-array window, and left with
  the two halves — an input array ends as it began — joined again. The region's result array then holds what the
  proof data computes (`arrAt 3 N`), the reshape runs on it, and the final state is read: the scalar at the reshape of
  that array, both argument arrays as launched.
-/
import proofs.«178279_j2680059592917_1_alg».proof.Proof.KIData
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's whole user algebra. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides along everywhere: the core's `owes`, at nothing. -/
abbrev R (c : Dev nD) : sProp 𝕄 := iprop(∃ W, owes (c : Thread nD τ) (0 : CellTallies nD τ sig Unit) W)

/-! ## The unscoped buffers and the pipeline's arrays, as chains of points-tos -/

omit [FloatOps F] in
theorem unscopedBufs_chain (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)) := by
  unfold unscopedBufs
  exact bigSep_eq_bigSepL_of_eq [main_arg0, main_arg1, main_v0, main_v1] (by decide) (by decide) _

/-- The pipeline's arrays: x twice, at the two halves of its share; adj and the result whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)) := by
  unfold Dat.arrays
  rw [bigSep_W0]
  rw [(arr_whole0 0).set_eq_univ, (arr_whole0 2).set_eq_univ, (arr_whole0 3).set_eq_univ]
  rfl

/-! ## After the region: the result array at its final contents -/

/-- The valuation the host operation after the region runs from: the launch contents, the region's result array at
    what the proof data computes. -/
def Wv (c : Dev nD) : Valuation τ sig (Elt F) :=
  Function.update (V0 m c) (Proc.devRef .tc main_v0) ((dats m 0 c).arrAt 3 cfg0.N)

/-- The buffers the reshape touches. -/
abbrev S01 : Finset (DevRef τ sig) := {Proc.devRef .tc main_v0, Proc.devRef .tc main_v1}

/-- Both argument arrays whole at their launch contents, and the `owes`. -/
abbrev Keep (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)) ∗ R c)

omit [FloatOps F] in
theorem held_S01 (c : Dev nD) (W : Valuation τ sig (Elt F)) :
    (StableHlo.held (c : Thread nD τ) S01 W : sProp 𝕄)
      = iprop((((c : Thread nD τ).loc main_v0) ↦{fullShare} W (Proc.devRef .tc main_v0)) ∗ (((c : Thread nD τ).loc main_v1) ↦{fullShare} W (Proc.devRef .tc main_v1))) := by
  unfold StableHlo.held
  rw [BI.bigSep_insert (by decide), BI.bigSep_singleton]
  rfl

/-- THE HOST SEGMENT: the reshape over the two buffers it touches. -/
def seg1 : Pipeline.HostSeg (Name := ℕ) (U := UR sig nD τ) (pcfgs (F := F)) defs₀ 𝒱₀ L lv :=
  Pipeline.HostSeg.ofOps _ _ _ _ _ S01 hostOps1
    (by intro op h; simp only [hostOps1, List.mem_singleton] at h; subst h; exact Finset.Subset.refl _)
    (by intro _ h; (repeat (cases h with | head => rfl | tail _ h => ?_)); exact nomatch h) (Wv m) (Keep m)

/-- The thread state at the end. -/
abbrev Tₙ (c : Dev nD) : sProp 𝕄 :=
  iprop(StableHlo.held (c : Thread nD τ) S01 (StableHlo.after hostOps1 (Wv m c))
    ∗ (((c : Thread nD τ).loc main_arg0) ↦{fullShare} m ((c : Thread nD τ).loc main_arg0)) ∗ (((c : Thread nD τ).loc main_arg1) ↦{fullShare} m ((c : Thread nD τ).loc main_arg1)))

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(unscopedBufs c (V m c) ∗ R c)
  post c := iprop(StableHlo.held (c : Thread nD τ) S01 (Wv m c) ∗ Keep m c)
  X c := iprop(emp)
  Y c := iprop(emp)
  Z c := ((c : Thread nD τ).loc main_v1) ↦{fullShare} V m c main_v1
  hentry c := by
    rw [unscopedBufs_chain, arrays_chain]
    iintro ⟨⟨⟨H0, H1, Hv0, Hv1⟩, HO⟩, -, -⟩
    ihave H0s := (pointsTo_share (PosShare.mem_left_op_right fullShare)).1 $$ H0
    icases H0s with ⟨H0l, H0r⟩
    imodintro
    isplitl [H0l H0r H1 Hv0]
    · isplitl [H0l]; · iexact H0l
      isplitl [H0r]; · iexact H0r
      isplitl [H1]; · iexact H1
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hv1
  hin c := by
    rw [show (dats m 0 c).Φ 0 = PhiS m c 0 (Nat.zero_le _) from rfl, PhiS_zero m c 0 _ rfl, scopedRest_scratch]
    iintro ⟨-, -, Hr⟩
    iexact Hr
  hout c := by
    rw [Pipeline.ownSems0_none, scopedRest_scratch, show (dats m 0 c).Φ (Fin.last cfg0.N) = PhiS m c (Fin.last cfg0.N).val (Nat.le_of_lt_succ (Fin.last cfg0.N).isLt) from rfl,
      PhiS_pos m c _ _ (by rw [Fin.val_last]; have : cfg0.N = 64 := N_0; omega)]
    iintro HS
    isplitr; · iempintro
    isplitr; · iempintro
    iexists _; iexact HS
  hexit c := by
    rw [arrays_chain, held_S01]
    rw [(dats m 0 c).arrAt_in 0 rfl, (dats m 0 c).arrAt_in 1 rfl, (dats m 0 c).arrAt_in 2 rfl]
    iintro ⟨⟨H0l, H0r, H1, Hv0⟩, HO, -, Hv1⟩
    ihave H0 := (pointsTo_share (PosShare.mem_left_op_right fullShare)).2 $$ [H0l H0r]
    · isplitl [H0l]; · iexact H0l
      iexact H0r
    imodintro
    isplitl [Hv0 Hv1]
    · isplitl [Hv0]
      · rw [show Wv m c (Proc.devRef .tc main_v0) = (dats m 0 c).arrAt 3 cfg0.N from Function.update_self _ _ _]
        iexact Hv0
      · rw [show Wv m c (Proc.devRef .tc main_v1) = V0 m c (Proc.devRef .tc main_v1) from Function.update_of_ne (by decide) _ _]
        iexact Hv1
    isplitl [H0]; · iexact H0
    isplitl [H1]; · iexact H1
    unfold Pipeline.Dat.owesAt Pipeline.owesWithin
    icases HO with ⟨%W, -, HO⟩; iexists W; iexact HO

/-- @main as the list of the two. -/
abbrev segs : List (Pipeline.Seg (pcfgs (F := F)) adm (dats m) () defs₀ 𝒱₀ L lv) := [.region (reg0 m), .host (seg1 m)]

/-- What the final state is read as. -/
def QY (c : Dev nD) (s : MemSt nD τ sig (Elt F)) : Prop :=
  s.mem ((c : Thread nD τ).loc main_v1) = StableHlo.after hostOps1 (Wv m c) (Proc.devRef .tc main_v1)
    ∧ s.mem ((c : Thread nD τ).loc main_arg0) = m ((c : Thread nD τ).loc main_arg0)
    ∧ s.mem ((c : Thread nD τ).loc main_arg1) = m ((c : Thread nD τ).loc main_arg1)

set_option backward.isDefEq.respectTransparency.types false in
/-- At the compiled mesh, for any float values, from any memory with zero counters: every weakly fair execution of
    @main on the TensorCores terminates, and every final state has the scalar result at the reshape of the region's
    result array and both argument arrays unchanged. -/
theorem run_main : θ_run defs (onTc (τ := τ) (main (F := F))) ⟨m, fun _ => 0, ρ⟩ (fun r => ∀ c : Dev nD, QY m c r.2) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c)) (Tₙ := Tₙ m)
    (hch := ⟨fun _ => .rfl, fun _ => .rfl, fun c => (show iprop(StableHlo.held (c : Thread nD τ) S01 (StableHlo.after hostOps1 (Wv m c)) ∗ Keep m c)
        ⊢ iprop(Tₙ m c ∗ ∃ W, owes (c : Thread nD τ) (0 : CellTallies nD τ sig Unit) W) from by
      iintro ⟨Hh, H0, H1, HR⟩
      isplitr [HR]
      · isplitl [Hh]; · iexact Hh
        isplitl [H0]; · iexact H0
        iexact H1
      iexact HR)⟩)
    (hinit := by
      refine Pipeline.initEach L lv fun c => ?_
      iintro ⟨⟨Hh, -, HO, -, -, -⟩, -⟩
      imodintro
      isplitl [Hh]; · iexact Hh
      iexists ∅; iexact HO)
    (QY := QY m)
    (hfin := fun c s' => by
      dsimp only [Tₙ]; rw [held_S01]
      iintro ⟨⟨⟨Hv0, Hv1⟩, H0, H1⟩, HSI⟩
      icombine HSI Hv1 gives %hv
      icombine HSI H0 gives %h0
      icombine HSI H1 gives %h1
      imodintro
      isplitr; · ipureintro; exact ⟨Buf.eq_of_forall_mem_univ hv, Buf.eq_of_forall_mem_univ h0, Buf.eq_of_forall_mem_univ h1⟩
      iexact HSI)
    (hQ := fun _ h => h)

end Cert.KernelIdeal.Hand

end
-- ==== Proof.Cell.lean ====
/-
  One entry's loss term, as a function of the score s = ⟨x_i, x_j⟩ and the adjacency entry a, over the extended reals.

  The kernel computes z = logistic(s), t = (a > 0 ? 1 : 0) and  max(z, 0) - z·t + log1p(exp(0 - |z|));
  the reference computes z = 1 / (1 + exp(-s)), the same t, and  max(z, 0) - z·t + log1p(exp(-|z|)).
  Over the extended reals the logistic function IS 1 / (1 + exp(-s)) (with the float word for 1.0 read as the number 1)
  and 0 - y = -y for every y, infinite or not: the two terms are one function. No finiteness is used.
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic

/-- The entry's term as the kernel computes it. -/
def cellK (s a : EReal) : EReal :=
  (max (Ideal.logistic s) (Ideal.ofBits .f32 0x00000000#32)
      - Ideal.logistic s * Scalar.select (Ideal.cmp .ogt a (Ideal.ofBits .f32 0x00000000#32)) (Ideal.ofBits .f32 0x3F800000#32) (Ideal.ofBits .f32 0x00000000#32))
    + Ideal.log1p (Ideal.exp (Ideal.ofBits .f32 0x00000000#32 - max (Ideal.logistic s) (-(Ideal.logistic s))))

/-- The sigmoid as the reference spells it: 1 / (1 + exp(-s)) over the float word for 1.0. -/
def sigR (s : EReal) : EReal :=
  Ideal.div (Ideal.ofBits .f32 0x3F800000#32) (Ideal.ofBits .f32 0x3F800000#32 + Ideal.exp (-s))

/-- The entry's term as the reference computes it. -/
def cellR (s a : EReal) : EReal :=
  (max (sigR s) (Ideal.ofBits .f32 0x00000000#32)
      - sigR s * Scalar.select (Ideal.cmp .ogt a (Ideal.ofBits .f32 0x00000000#32)) (Ideal.ofBits .f32 0x3F800000#32) (Ideal.ofBits .f32 0x00000000#32))
    + Ideal.log1p (Ideal.exp (-(max (sigR s) (-(sigR s)))))

theorem sigR_eq (s : EReal) : sigR s = Ideal.logistic s := by
  unfold sigR Ideal.logistic
  rw [Ideal.ofBits_one_f32]

/-- The two are one function of (s, a) on all of the extended reals. -/
theorem cellK_eq_cellR (s a : EReal) : cellK s a = cellR s a := by
  unfold cellK cellR
  rw [sigR_eq, Ideal.ofBits_zero_f32, zero_sub]

/-! ## The specification of the result -/

open Idealize.ShloMosaic.ValueIdx in
/-- The score of the pair (i, j): the contraction of rows i and j of x over the 128 features. -/
def dotS (x : (⟨2, ![8192, 128]⟩ : Shape).Idx → EReal) (j : (⟨2, ![8192, 8192]⟩ : Shape).Idx) : EReal :=
  ∑ k : Fin 128, x (ix2 (j 0) k) * x (ix2 (j 1) k)

/-- THE RESULT both programs compute: the total over all pairs (i, j) of the entry's term of the score and adj(i, j),
    added to the float word 0 and divided by the float word 2^26 (= 8192·8192). -/
def lossS (x : (⟨2, ![8192, 128]⟩ : Shape).Idx → EReal) (a : (⟨2, ![8192, 8192]⟩ : Shape).Idx → EReal) : EReal :=
  Ideal.div (Ideal.ofBits .f32 0x00000000#32 + ∑ j, cellR (dotS x j) (a j)) (Ideal.ofBits .f32 0x4C800000#32)

end Cert.Spec

end
-- ==== Proof.LibRowBlockSum.lean ====
/-
  A general lemma about sums over the indices of a two-axis array whose first extent is a product a·b: the sum over
  all indices (r, c), r < a·b, c < n, is the sum over the a row blocks t of the sum over the indices (p, c), p < b,
  c < n, of the term at row p + b·t. It holds in any commutative additive monoid — so over the extended reals, with
  infinite values allowed: only the order and grouping of a finite sum change.
-/
import Idealize.ShloMosaic.PureOps.Ideal
import Idealize.ShloMosaic.Lib.ValueIdx

noncomputable section

namespace Cert.Lib

open Idealize.ShloMosaic Idealize.ShloMosaic.ValueIdx

/-- Row `p` of row block `t`, of `a` blocks of `b` rows: row p + b·t. -/
def blockRow {a b : ℕ} (t : Fin a) (p : Fin b) : Fin (a * b) := finProdFinEquiv (t, p)

theorem blockRow_val {a b : ℕ} (t : Fin a) (p : Fin b) : (blockRow t p).val = p.val + b * t.val := rfl

/-- A sum over the a·b rows is the double sum over a blocks of b rows. -/
theorem sum_rows_blocks {M : Type*} [AddCommMonoid M] {a b : ℕ} (g : Fin (a * b) → M) :
    ∑ r, g r = ∑ t : Fin a, ∑ p : Fin b, g (blockRow t p) := by
  rw [← Equiv.sum_comp (finProdFinEquiv (m := a) (n := b)) g, Fintype.sum_prod_type]
  rfl

/-- A sum over the indices of an [a·b, n] array is the sum over the row blocks of the sums over the indices of a
    [b, n] block, the term read at the block's row. -/
theorem sum_row_blocks {M : Type*} [AddCommMonoid M] {a b n : ℕ} (f : (⟨2, ![a * b, n]⟩ : Shape).Idx → M) :
    ∑ j, f j = ∑ t : Fin a, ∑ idx : (⟨2, ![b, n]⟩ : Shape).Idx, f (ix2 (blockRow t (idx 0)) (idx 1)) := by
  rw [sum_idx2, sum_rows_blocks]
  refine Finset.sum_congr rfl fun t _ => ?_
  rw [sum_idx2]
  rfl

end Cert.Lib

end
-- ==== Proof.KIValue.lean ====
/-
  The value of the idealized kernel's run, over the extended reals.

  Point t's sum payload is what the scratch held plus the total, over the 128 × 8192 block, of the entry's term of the
  matmul entry and the adj entry; the matmul entry at (r, j) is the score of the pair (128·t + r, j), because the row
  block's row r is row 128·t + r of x and the second operand is all of x; so the scratch after the last point is zero
  plus the 64 block totals, which regroup — a finite sum in a commutative monoid, no finiteness needed — into the total
  over all pairs. The result array is the last point's 1×1 write-back, the quotient payload of that; the host reshape
  reads it as a scalar: the specification's loss.
-/
import proofs.«178279_j2680059592917_1_alg».proof.Proof.KILaunch
import proofs.«178279_j2680059592917_1_alg».proof.Proof.Cell
import proofs.«178279_j2680059592917_1_alg».proof.Proof.LibRowBlockSum
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Spec Idealize.ShloMosaic.ValueIdx

/-! ## The sum payload at the extended reals -/

/-- The score the kernel's matmul computes at a block index: the sum over the contraction index of the products of
    the two operands' entries. -/
def dotK (x1 : Vec Ideal S128x128 .f32) (x2 : Vec Ideal S8192x128 .f32) (idx : S128x8192.Idx) : EReal :=
  ∑ q : dot_S128x128_S8192x128_S128x8192_1_1_0_0_n_n.contr.Idx,
    x1 (dot_S128x128_S8192x128_S128x8192_1_1_0_0_n_n.lhsIdx idx q) * x2 (dot_S128x128_S8192x128_S128x8192_1_1_0_0_n_n.rhsIdx idx q)

/-- An index of the [1,128,8192] cast of a block is an index of the block behind a unit coordinate. -/
def dropUnit : S1x128x8192.Idx ≃ S128x8192.Idx where
  toFun j := fun a => j a.succ
  invFun k := Fin.cons (⟨0, Nat.one_pos⟩ : Fin 1) k
  left_inv j := by
    funext a
    refine Fin.cases ?_ (fun a => ?_) a
    · exact Fin.ext (by have h := (j 0).isLt; simp at h; simp; omega)
    · rfl
  right_inv k := by funext a; rfl

/-- The lane reduction over both tile axes, cast to [1,1,1], extracted and broadcast to [1,1]: at its one index the
    total of the block. -/
theorem total_of (Wb : Vec Ideal S1x128x8192 .f32) (i : S1x1.Idx) (hφ : FKind.Formats FTy.f32) (hacc : (0x00000000#32 : BitVec FTy.f32.bits) = FKind.add.neutral FTy.f32 hφ) :
    broadcast S1x1 (extractAt ![0, 0, 0] (shapeCast S1x1x1 (multiReduction (F := Ideal) .add [1, 2] S1 Wb 0x00000000#32 reduces_S1x128x8192_S1 hφ hacc) shapeCasts_S1_S1x1x1) inpos_S1x1x1_p0_0_0) i
      = ∑ j : S1x128x8192.Idx, Wb j :=
  Ideal.multiReduction_add_total Wb _ reduces_S1x128x8192_S1 (fun b => by fin_cases b; rfl) hφ hacc _

/-- The body's elementwise chain, over any score matrix `M` and adjacency block `x3`, at an index: the kernel's entry term. -/
theorem cell_at (M : FVec Ideal S128x8192 .f32) (x3 : FVec Ideal S128x8192 .f32) (idx : S128x8192.Idx) :
    addf (subf (maximumf (logistic M) (broadcast S128x8192 (FloatOps.ofBits .f32 0x00000000#32)))
          (mulf (logistic M) (select (cmpf .ogt x3 (broadcast S128x8192 (FloatOps.ofBits .f32 0x00000000#32)))
            (broadcast S128x8192 (FloatOps.ofBits .f32 0x3F800000#32)) (broadcast S128x8192 (FloatOps.ofBits .f32 0x00000000#32)))))
        (log1p (exp (subf (broadcast S128x8192 (FloatOps.ofBits .f32 0x00000000#32)) (absf (logistic M))))) idx
      = cellK (M idx) (x3 idx) := rfl

set_option maxHeartbeats 1000000 in
/-- THE SUM PAYLOAD: at its one index, what the scratch held plus the total over the block of the entries' terms. -/
theorem pay3_apply (x1 : Vec Ideal S128x128 .f32) (x2 : Vec Ideal S8192x128 .f32) (x3 : Vec Ideal S128x8192 .f32) (xs : Vec Ideal S1x1 .f32) (i : S1x1.Idx) :
    k0_pay3 (F := Ideal) x1 x2 x3 xs i = xs i + ∑ idx : S128x8192.Idx, cellK (dotK x1 x2 idx) (x3 idx) := by
  unfold k0_pay3
  refine (congrFun (shapeCast_self _ _) i).trans ?_
  refine (addf_apply xs _ i).trans ?_
  refine congrArg (xs i + ·) ?_
  refine (total_of _ i _ _).trans ?_
  refine Eq.trans (Finset.sum_congr rfl fun j _ => ?_) (Equiv.sum_comp dropUnit (fun idx => cellK (dotK x1 x2 idx) (x3 idx)))
  refine (shapeCast_addUnit_apply ![128, 8192] _ shapeCasts_S128x8192_S1x128x8192 j).trans ?_
  exact (cell_at (matmul dot_S128x128_S8192x128_S128x8192_1_1_0_0_n_n none (truncf .bf16 x1 bitsLt_bf16_f32) (truncf .bf16 x2 bitsLt_bf16_f32) (constant S128x8192 .f32 0x00000000#32)) x3 (dropUnit j)).trans
    (congrArg (fun s => cellK s (x3 (dropUnit j))) (Ideal.matmul_constant_zero_apply dot_S128x128_S8192x128_S128x8192_1_1_0_0_n_n none (truncf .bf16 x1 bitsLt_bf16_f32) (truncf .bf16 x2 bitsLt_bf16_f32) (dropUnit j)))

/-- The zero fill is zero. -/
theorem pay2_apply (i : S1x1.Idx) : k0_pay2 (F := Ideal) i = 0 := by
  unfold k0_pay2
  refine (congrFun (shapeCast_self _ _) i).trans ?_
  exact Ideal.ofBits_zero_f32

/-- THE QUOTIENT PAYLOAD: the entry over the float word 2^26. -/
theorem pay1_apply (v : Vec Ideal S1x1 .f32) (i : S1x1.Idx) :
    k0_pay1 (F := Ideal) v i = Ideal.div (v i) (Ideal.ofBits .f32 0x4C800000#32) := rfl

/-! ## The blocks in coordinates -/

/-- The printed index maps, decided over the grid: windows 0 and 2 sit at row-block `t`, windows 1 and 3 at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- Row `r` of block `t` is row 128·t + r of the array. -/
def rowOf (t : Fin cfg0.N) (r : Fin 128) : Fin 8192 :=
  ⟨128 * t.val + r.val, by have h := t.isLt; have hN : cfg0.N = 64 := N_0; have := r.isLt; omega⟩

theorem emb0 (t : Fin cfg0.N) (y : S128x128.Idx) :
    ((cfg0.win 0).blk t).view.emb y = (ix2 (rowOf t (y 0)) (y 1) : S8192x128.Idx) := by
  obtain ⟨e0, e1, -⟩ := idx_facts t
  funext a; apply Fin.ext
  match a with
  | ⟨0, _⟩ => show win0_0.index t (0 : Fin 2) * 128 + 1 * (y 0).val = 128 * t.val + (y 0).val; omega
  | ⟨1, _⟩ => show win0_0.index t (1 : Fin 2) * 128 + 1 * (y 1).val = (y 1).val; omega

theorem emb1 (t : Fin cfg0.N) (y : S8192x128.Idx) :
    ((cfg0.win 1).blk t).view.emb y = y := by
  obtain ⟨-, -, e0, e1, -⟩ := idx_facts t
  funext a; apply Fin.ext
  match a with
  | ⟨0, _⟩ => show win0_1.index t (0 : Fin 2) * 8192 + 1 * (y 0).val = (y 0).val; omega
  | ⟨1, _⟩ => show win0_1.index t (1 : Fin 2) * 128 + 1 * (y 1).val = (y 1).val; omega

theorem emb2 (t : Fin cfg0.N) (y : S128x8192.Idx) :
    ((cfg0.win 2).blk t).view.emb y = (ix2 (rowOf t (y 0)) (y 1) : S8192x8192.Idx) := by
  obtain ⟨-, -, -, -, e0, e1, -⟩ := idx_facts t
  funext a; apply Fin.ext
  match a with
  | ⟨0, _⟩ => show win0_2.index t (0 : Fin 2) * 128 + 1 * (y 0).val = 128 * t.val + (y 0).val; omega
  | ⟨1, _⟩ => show win0_2.index t (1 : Fin 2) * 8192 + 1 * (y 1).val = (y 1).val; omega

theorem iblk0_apply (c : Dev nD) (t : Fin cfg0.N) (y : S128x128.Idx) :
    iblk m c 0 t y = m ((c : Thread nD τ).loc main_arg0) (ix2 (rowOf t (y 0)) (y 1)) := by
  show V m c main_arg0 (((cfg0.win 0).blk t).view.emb y) = _
  rw [emb0]

theorem iblk1_apply (c : Dev nD) (t : Fin cfg0.N) (y : S8192x128.Idx) :
    iblk m c 1 t y = m ((c : Thread nD τ).loc main_arg0) y := by
  show V m c main_arg0 (((cfg0.win 1).blk t).view.emb y) = _
  rw [emb1]

theorem iblk2_apply (c : Dev nD) (t : Fin cfg0.N) (y : S128x8192.Idx) :
    iblk m c 2 t y = m ((c : Thread nD τ).loc main_arg1) (ix2 (rowOf t (y 0)) (y 1)) := by
  show V m c main_arg1 (((cfg0.win 2).blk t).view.emb y) = _
  rw [emb2]

/-! ## The kernel's score is the specification's -/

theorem lhsK_0 (idx : S128x8192.Idx) (q : dot_S128x128_S8192x128_S128x8192_1_1_0_0_n_n.contr.Idx) : (dot_S128x128_S8192x128_S128x8192_1_1_0_0_n_n.lhsIdx idx q 0).val = (idx 0).val := by
  unfold DotDims.lhsIdx
  rw [dif_neg (show ¬(0 : Fin S128x128.rank) ∈ dot_S128x128_S8192x128_S128x8192_1_1_0_0_n_n.lhsBatch by decide), dif_pos (show (0 : Fin S128x128.rank) ∈ dot_S128x128_S8192x128_S128x8192_1_1_0_0_n_n.lhsNonContracting by decide)]
  rfl
theorem lhsK_1 (idx : S128x8192.Idx) (q : dot_S128x128_S8192x128_S128x8192_1_1_0_0_n_n.contr.Idx) : (dot_S128x128_S8192x128_S128x8192_1_1_0_0_n_n.lhsIdx idx q 1).val = (q ⟨0, by decide⟩).val :=
  dot_S128x128_S8192x128_S128x8192_1_1_0_0_n_n.lhsIdx_val_of_single rfl idx q
theorem rhsK_0 (idx : S128x8192.Idx) (q : dot_S128x128_S8192x128_S128x8192_1_1_0_0_n_n.contr.Idx) : (dot_S128x128_S8192x128_S128x8192_1_1_0_0_n_n.rhsIdx idx q 0).val = (idx 1).val := by
  unfold DotDims.rhsIdx
  rw [dif_neg (show ¬(0 : Fin S8192x128.rank) ∈ dot_S128x128_S8192x128_S128x8192_1_1_0_0_n_n.rhsBatch by decide), dif_pos (show (0 : Fin S8192x128.rank) ∈ dot_S128x128_S8192x128_S128x8192_1_1_0_0_n_n.rhsNonContracting by decide)]
  rfl
theorem rhsK_1 (idx : S128x8192.Idx) (q : dot_S128x128_S8192x128_S128x8192_1_1_0_0_n_n.contr.Idx) : (dot_S128x128_S8192x128_S128x8192_1_1_0_0_n_n.rhsIdx idx q 1).val = (q ⟨0, by decide⟩).val :=
  dot_S128x128_S8192x128_S128x8192_1_1_0_0_n_n.rhsIdx_val_of_single rfl idx q

/-- At point `t` and block index (r, j) the matmul of the row block against all of x is the score of the pair
    (128·t + r, j): the left operand's row r is row 128·t + r of x, the right operand is x. -/
theorem dotK_eq (m : (ℓ : Loc nD τ sig) → Buf (Elt Ideal) ℓ) (c : Dev nD) (t : Fin cfg0.N) (idx : S128x8192.Idx) :
    dotK (iblk m c 0 t) (iblk m c 1 t) idx = dotS (m ((c : Thread nD τ).loc main_arg0)) (ix2 (rowOf t (idx 0)) (idx 1)) := by
  unfold dotK dotS
  rw [← Equiv.sum_comp (contrEquiv1 dot_S128x128_S8192x128_S128x8192_1_1_0_0_n_n 128 rfl rfl).symm]
  refine Finset.sum_congr rfl fun k _ => ?_
  have hk := contrEquiv1_symm_val dot_S128x128_S8192x128_S128x8192_1_1_0_0_n_n 128 rfl rfl k
  have el : dot_S128x128_S8192x128_S128x8192_1_1_0_0_n_n.lhsIdx idx ((contrEquiv1 dot_S128x128_S8192x128_S128x8192_1_1_0_0_n_n 128 rfl rfl).symm k) = (ix2 (idx 0) k : S128x128.Idx) := funext fun a => Fin.ext (by
    match a with
    | ⟨0, _⟩ => exact lhsK_0 _ _
    | ⟨1, _⟩ => exact (lhsK_1 _ _).trans hk)
  have er : dot_S128x128_S8192x128_S128x8192_1_1_0_0_n_n.rhsIdx idx ((contrEquiv1 dot_S128x128_S8192x128_S128x8192_1_1_0_0_n_n 128 rfl rfl).symm k) = (ix2 (idx 1) k : S8192x128.Idx) := funext fun a => Fin.ext (by
    match a with
    | ⟨0, _⟩ => exact rhsK_0 _ _
    | ⟨1, _⟩ => exact (rhsK_1 _ _).trans hk)
  rw [el, er, iblk0_apply, iblk1_apply]

/-! ## The accumulation is the total -/

/-- The total of the entries' terms over the block of point `t`. -/
def blockSum (m : (ℓ : Loc nD τ sig) → Buf (Elt Ideal) ℓ) (c : Dev nD) (t : Fin cfg0.N) : EReal :=
  ∑ idx : S128x8192.Idx, cellK (dotK (iblk m c 0 t) (iblk m c 1 t) idx) (iblk m c 2 t idx)

/-- The same for a position that may lie outside the grid (then zero). -/
def blockSumN (m : (ℓ : Loc nD τ sig) → Buf (Elt Ideal) ℓ) (c : Dev nD) (n : ℕ) : EReal :=
  if h : n < cfg0.N then blockSum m c ⟨n, h⟩ else 0

/-- The scratch after point `n` is zero plus the block totals of the points up to `n`: each point adds its block's. -/
theorem accAt_sum (m : (ℓ : Loc nD τ sig) → Buf (Elt Ideal) ℓ) (c : Dev nD) (i : S1x1.Idx) :
    ∀ (n : ℕ) (hn : n < cfg0.N), accAt m c n hn i = 0 + ∑ t ∈ Finset.range (n + 1), blockSumN m c t
  | 0, hn => by
    refine (pay3_apply _ _ _ _ i).trans ?_
    rw [pay2_apply, Finset.sum_range_one]
    unfold blockSumN
    rw [dif_pos hn]
    rfl
  | n + 1, hn => by
    refine (pay3_apply _ _ _ _ i).trans ?_
    rw [accAt_sum m c i n (Nat.lt_of_succ_lt hn), Finset.sum_range_succ _ (n + 1), add_assoc]
    congr 2
    unfold blockSumN
    rw [dif_pos hn]
    rfl

/-- Block `t`'s total is the specification's entries over rows 128·t … 128·t + 127. -/
theorem blockSum_eq (m : (ℓ : Loc nD τ sig) → Buf (Elt Ideal) ℓ) (c : Dev nD) (t : Fin cfg0.N) :
    blockSum m c t = ∑ idx : S128x8192.Idx,
      cellR (dotS (m ((c : Thread nD τ).loc main_arg0)) (ix2 (rowOf t (idx 0)) (idx 1))) (m ((c : Thread nD τ).loc main_arg1) (ix2 (rowOf t (idx 0)) (idx 1))) := by
  unfold blockSum
  refine Finset.sum_congr rfl fun idx _ => ?_
  rw [cellK_eq_cellR, dotK_eq, iblk2_apply]

/-- THE SCRATCH AFTER THE LAST POINT: zero plus the total over ALL pairs of the entries' terms. -/
theorem acc_last (m : (ℓ : Loc nD τ sig) → Buf (Elt Ideal) ℓ) (c : Dev nD) (i : S1x1.Idx) (h63 : 63 < cfg0.N) :
    accAt m c 63 h63 i = 0 + ∑ j : S8192x8192.Idx, cellR (dotS (m ((c : Thread nD τ).loc main_arg0)) j) (m ((c : Thread nD τ).loc main_arg1) j) := by
  rw [accAt_sum m c i 63 h63]
  congr 1
  rw [Cert.Lib.sum_row_blocks (a := 64) (b := 128) (n := 8192)
    (fun j => cellR (dotS (m ((c : Thread nD τ).loc main_arg0)) j) (m ((c : Thread nD τ).loc main_arg1) j))]
  rw [← Fin.sum_univ_eq_sum_range (fun t => blockSumN m c t) 64]
  refine Finset.sum_congr rfl fun t _ => ?_
  have ht : t.val < cfg0.N := lt_of_lt_of_eq t.isLt N_0.symm
  unfold blockSumN
  rw [dif_pos ht, blockSum_eq]
  refine Finset.sum_congr rfl fun idx _ => ?_
  have hr : rowOf ⟨t.val, ht⟩ (idx 0) = Cert.Lib.blockRow t (idx 0) := Fin.ext (by
    show 128 * t.val + (idx 0).val = (idx 0).val + 128 * t.val
    omega)
  rw [hr]
  rfl

/-! ## The result array and the scalar result -/

theorem emb3 (t : Fin cfg0.N) (y : S1x1.Idx) :
    ((cfg0.win 3).blk t).view.emb y = y := by
  obtain ⟨-, -, -, -, -, -, e0, e1⟩ := idx_facts t
  funext a; apply Fin.ext
  match a with
  | ⟨0, _⟩ => show win0_3.index t (0 : Fin 2) * 1 + 1 * (y 0).val = (y 0).val; omega
  | ⟨1, _⟩ => show win0_3.index t (1 : Fin 2) * 1 + 1 * (y 1).val = (y 1).val; omega

/-- THE RESULT ARRAY after the region: the one write-back is the last point's, whose 1×1 block is the whole array,
    so the array holds the quotient payload of the scratch after the last point. -/
theorem final3 (m : (ℓ : Loc nD τ sig) → Buf (Elt Ideal) ℓ) (c : Dev nD) (h63 : 63 < cfg0.N) :
    (dats m 0 c).arrAt 3 cfg0.N = k0_pay1 (accAt m c 63 h63) := by
  refine (dats m 0 c).arrAt_eq_of_cover 3 _ (fun t hf => ?_) (fun i => ⟨⟨63, h63⟩, (flush0_3 _).mpr rfl, ?_⟩)
  · have ht : t.val = 63 := by
      have h1 := (flush0_3 t).mp hf
      have h2 := t.isLt
      have h3 : cfg0.N = 64 := N_0
      omega
    show (cfg0.win 3).cut (grid0.coords t) ((dats m 0 c).after 3 t) = _
    rw [after3]
    obtain ⟨n, hn⟩ := t
    have hn' : n = 63 := ht
    subst hn'
    funext y
    show k0_pay1 (accAt m c 63 hn) y = k0_pay1 (accAt m c 63 h63) (((cfg0.win 3).blk ⟨63, hn⟩).view.emb y)
    rw [emb3]
  · show i ∈ ((View.whole main_v0).slice (win0_3.rect ⟨63, h63⟩)).set
    rw [View.set_slice_whole, Rect.mem_set_unit]
    obtain ⟨-, -, -, -, -, -, e0, e1⟩ := idx_facts ⟨63, h63⟩
    intro a
    match a with
    | ⟨0, _⟩ => show win0_3.index ⟨63, h63⟩ (0 : Fin 2) * 1 ≤ (i 0).val ∧ (i 0).val < win0_3.index ⟨63, h63⟩ (0 : Fin 2) * 1 + 1; have hi : (i 0).val < 1 := (i 0).isLt; omega
    | ⟨1, _⟩ => show win0_3.index ⟨63, h63⟩ (1 : Fin 2) * 1 ≤ (i 1).val ∧ (i 1).val < win0_3.index ⟨63, h63⟩ (1 : Fin 2) * 1 + 1; have hi : (i 1).val < 1 := (i 1).isLt; omega

/-- The host reshape after the region reads the 1×1 result array as a scalar. -/
theorem after_reshape (m : (ℓ : Loc nD τ sig) → Buf (Elt Ideal) ℓ) (c : Dev nD) :
    StableHlo.after hostOps1 (Wv m c) (Proc.devRef .tc main_v1) = shapeCast S_ ((dats m 0 c).arrAt 3 cfg0.N) shapeCasts_S1x1_S_ := by
  after_results
  have hW : Wv m c (Proc.devRef .tc main_v0) = (dats m 0 c).arrAt 3 cfg0.N := Function.update_self _ _ _
  rw [hW]
  rfl

/-- THE SCALAR RESULT is the specification's loss of the two argument arrays. -/
theorem result_scalar (m : (ℓ : Loc nD τ sig) → Buf (Elt Ideal) ℓ) (c : Dev nD) (i : S_.Idx) :
    StableHlo.after hostOps1 (Wv m c) (Proc.devRef .tc main_v1) i
      = lossS (m ((c : Thread nD τ).loc main_arg0)) (m ((c : Thread nD τ).loc main_arg1)) := by
  have h63 : 63 < cfg0.N := by rw [show cfg0.N = 64 from N_0]; decide
  rw [after_reshape, final3 m c h63]
  refine (shapeCast_apply _ shapeCasts_S1x1_S_ i (ix2 (0 : Fin 1) (0 : Fin 1)) (by
    rw [Shape.rowMajor_val_two]
    have h := (S_.rowMajor i).isLt
    have h1 : S_.numel = 1 := rfl
    simp only [h1] at h
    show 0 * 1 + 0 = _
    omega)).trans ?_
  rw [pay1_apply, acc_last m c _ h63]
  unfold lossS
  rw [Ideal.ofBits_zero_f32]

/-- THE RUN, READ: at the extended reals every weakly fair execution of @main terminates with the scalar result at the
    specification's loss of the argument arrays, and the argument arrays unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v1) = (fun _ => lossS (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (funext fun i => result_scalar m c i), (h c).2⟩) (run_main m ρ)

end Cert.KernelIdeal.Hand

end
-- ==== Proof.RefIsSpec.lean ====
/-
  The reference, read at an index. Its matrix of entry terms is, entry (i, j), the reference's term `cellR` of the
  score ∑_k x(i,k)·x(j,k) and adj(i,j); its result is the quotient by the float word 2^26 of the float word 0 plus the
  total of that matrix. The generated read-at-an-index lemmas give each stage from its operands; chained, they give this.
-/
import proofs.«178279_j2680059592917_1_alg».proof.Proof.Gen.ReferenceIdeal.Read
import proofs.«178279_j2680059592917_1_alg».proof.Proof.Cell

noncomputable section

namespace Cert.ReferenceIdeal.RefValue

open Cert.ReferenceIdeal Cert.ReferenceIdeal.Gen Cert.ReferenceIdeal.Read Cert.Spec
open Idealize.ShloMosaic Idealize.ShloMosaic.TcCoe Idealize.SL.Sem Idealize.ShloMosaic.StableHlo

/-- The score of the pair (i, j): the contraction of row i and row j of x (the second read through the transpose). -/
def dotR (x : (⟨S8192x128, .f32⟩ : BufTy).Contents (Elt Ideal)) (j : S8192x8192.Idx) : EReal :=
  ∑ k : Fin 128, x (lidx_main_v5 j k) * x (idx_main_v4 (ridx_main_v5 j k))

/-- The reference's matrix of entry terms, at an index. -/
theorem v20_apply (x0 : (⟨S8192x128, .f32⟩ : BufTy).Contents (Elt Ideal)) (x1 : (⟨S8192x8192, .f32⟩ : BufTy).Contents (Elt Ideal)) (j : S8192x8192.Idx) :
    val_main_v20 (F := Ideal) x0 x1 j = cellR (dotR x0 j) (x1 j) := by
  simp only [val_main_v20_apply, val_main_v19_apply, val_main_v18_apply, val_main_v17_apply, val_main_v16_apply, val_main_v15_apply, val_main_v14_apply, val_main_v13_apply, val_main_v12_apply, val_main_cst_4_apply, val_main_v11_apply, val_main_v10_apply, val_main_cst_3_apply, val_main_v9_apply, val_main_v8_apply, val_main_cst_2_apply, val_main_v7_apply, val_main_v6_apply, val_main_v5_apply, val_main_v4_apply, val_main_v3_apply, val_main_v2_apply, val_main_call0_v1_apply, val_main_call0_v0_apply, val_main_cst_1_apply, val_main_cst_0_apply, val_main_v1_apply, val_main_v0_apply, val_main_cst_apply]
  rfl

/-- The reference's result: the total of the matrix over the float word 0, divided by the float word 2^26. -/
theorem result_apply (x0 : (⟨S8192x128, .f32⟩ : BufTy).Contents (Elt Ideal)) (x1 : (⟨S8192x8192, .f32⟩ : BufTy).Contents (Elt Ideal)) (i : S_.Idx) :
    val_main_v22 (F := Ideal) x0 x1 i
      = Ideal.div (Ideal.ofBits .f32 0x00000000#32 + ∑ j : S8192x8192.Idx, cellR (dotR x0 j) (x1 j)) (Ideal.ofBits .f32 0x4C800000#32) := by
  rw [val_main_v22_apply, val_main_v21_apply]
  simp only [v20_apply]
  rfl

open Idealize.ShloMosaic.ValueIdx in
/-- The reference's score is the specification's: its operand indices are (i, k) and, through the transpose, (j, k). -/
theorem dotR_eq (x : (⟨S8192x128, .f32⟩ : BufTy).Contents (Elt Ideal)) (j : S8192x8192.Idx) : dotR x j = dotS x j := by
  unfold dotR dotS
  refine Finset.sum_congr rfl fun k _ => ?_
  have e1 : lidx_main_v5 j k = (ix2 (j 0) k : S8192x128.Idx) := funext fun a => by
    match a with
    | ⟨0, _⟩ => rfl
    | ⟨1, _⟩ => rfl
  have e2 : idx_main_v4 (ridx_main_v5 j k) = (ix2 (j 1) k : S8192x128.Idx) := funext fun a => by
    match a with
    | ⟨0, _⟩ => rfl
    | ⟨1, _⟩ => rfl
  rw [e1, e2]

/-- THE REFERENCE'S RESULT is the specification's loss of its two arguments. -/
theorem result_eq (x0 : (⟨S8192x128, .f32⟩ : BufTy).Contents (Elt Ideal)) (x1 : (⟨S8192x8192, .f32⟩ : BufTy).Contents (Elt Ideal)) :
    val_main_v22 (F := Ideal) x0 x1 = fun _ => lossS x0 x1 := by
  funext i
  rw [result_apply]
  unfold lossS
  simp only [dotR_eq]

end Cert.ReferenceIdeal.RefValue

end
-- ==== Proof.lean ====
/-
  The five claims about the pairwise-loss kernel and its reference.

  Both programs compute, over the extended reals, the mean over all pairs (i, j) of the binary cross-entropy term of
  the sigmoid of the score ⟨x_i, x_j⟩ against the target (adj(i,j) > 0): the kernel as 64 row-block totals accumulated
  in a scratch and divided by 2^26 at the last grid point, the reference as one total divided by 2^26. The two entry
  terms are one function (the logistic function is 1 / (1 + exp(-s)), and 0 - y = -y), and the 64 block totals regroup
  into the one total; no finiteness of the inputs is needed.

  The kernel's frames — it runs to the end, faults nowhere and leaves its arguments unchanged — are its run read without
  the result, at the word-level instance and at the extended reals; the reference's is its run read likewise; the
  idealization rewrote no operation.
-/
import proofs.«178279_j2680059592917_1_alg».proof.Defs
import proofs.«178279_j2680059592917_1_alg».proof.Proof.Gen.Kernel
import proofs.«178279_j2680059592917_1_alg».proof.Proof.Gen.KernelIdeal
import proofs.«178279_j2680059592917_1_alg».proof.Proof.Gen.ReferenceIdeal
import proofs.«178279_j2680059592917_1_alg».proof.Proof.Gen.Pre_finite_inputs
import proofs.«178279_j2680059592917_1_alg».proof.Proof.Gen.ReferenceIdeal.Run
import proofs.«178279_j2680059592917_1_alg».proof.Proof.Gen.ReferenceIdeal.Read
import proofs.«178279_j2680059592917_1_alg».proof.Proof.KLaunch
import proofs.«178279_j2680059592917_1_alg».proof.Proof.KIValue
import proofs.«178279_j2680059592917_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_p : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run_main (F := Bits) m ρ)

/-- So does the idealized kernel. -/
theorem frame_pi : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run_main (F := Ideal) m ρ)

/-- And the reference. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both idealized programs end with the specification's loss of the arguments, which agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => (fun _ => Cert.Spec.lossS (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
